-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S128x2 .f32) (main_arg17 : FVec F S2 .f32) (main_v63 : IVec S_ 1) (main_v67 : IVec S_ 1) : IVec S_ 1 :=
  let main_v68 : IVec S_ 1 := andi main_v63 main_v67
  let main_v69 : FVec F S128x2 .f32 := Host.absf main_arg16
  let main_cst_26 : FVec F S_ .f32 := constant S_ .f32 0x7F800000#32
  let main_v70 : FVec F S128x2 .f32 := broadcastInDim S128x2 ![] bcast_S_S128x2 main_cst_26
  let main_v71 : IVec S128x2 1 := cmpf .olt main_v69 main_v70
  let main_c_27 : IVec S_ 1 := constantI S_ 1 1#1
  let main_v72 : IVec S_ 1 := (fun x v => Host.reduce IntOp.andi x v reducesTo_S128x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg13 : FVec F S128x128 .f32) (main_arg14 : FVec F S128 .f32) (main_arg15 : FVec F S128x128 .f32) (main_arg16 : FVec F S128x2 .f32) (main_arg17 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_v63 main_v67

def fn_part2 {F : FTy → Type} [FloatOps F] (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x2 .f32) (main_arg17 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x2 .f32) (main_arg17 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : FVec F S50000x128 .f32) (main_arg2 : IVec S2x1600000 32) (main_arg3 : IVec S2x1600000 32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x2 .f32) (main_arg17 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S10000x128 : Shape := ⟨2, ![10000, 128]⟩
abbrev S10000x1 : Shape := ⟨2, ![10000, 1]⟩
abbrev S1x128 : Shape := ⟨2, ![1, 128]⟩
abbrev S50000x2 : Shape := ⟨2, ![50000, 2]⟩
abbrev S10000x2 : Shape := ⟨2, ![10000, 2]⟩
abbrev S1x2 : Shape := ⟨2, ![1, 2]⟩

abbrev nBuf : Space → Nat
  | .hbm => 96
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x1600000, .i32⟩
  | .hbm, ⟨3, _⟩ => ⟨S2x1600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x2, .f32⟩
  | .hbm, ⟨17, _⟩ => ⟨S2, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S1x1600000, .i32⟩
  | .hbm, ⟨25, _⟩ => ⟨S1600000, .i32⟩
  | .hbm, ⟨26, _⟩ => ⟨S_, .i32⟩
  | .hbm, ⟨27, _⟩ => ⟨S1600000, .i32⟩
  | .hbm, ⟨28, _⟩ => ⟨S_, .i32⟩
  | .hbm, ⟨29, _⟩ => ⟨S50000, .i32⟩
  | .hbm, ⟨30, _⟩ => ⟨S1600000x1, .i32⟩
  | .hbm, ⟨31, _⟩ => ⟨S50000, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S_, .i32⟩
  | .hbm, ⟨41, _⟩ => ⟨S1600000, .i32⟩
  | .hbm, ⟨42, _⟩ => ⟨S_, .i32⟩
  | .hbm, ⟨43, _⟩ => ⟨S50000, .i32⟩
  | .hbm, ⟨44, _⟩ => ⟨S1600000x1, .i32⟩
  | .hbm, ⟨45, _⟩ => ⟨S50000, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S50000x128, .f32⟩
  | .hbm, ⟨65, _⟩ => ⟨S1600000x1, .i32⟩
  | .hbm, ⟨66, _⟩ => ⟨S50000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S50000x128, .f32⟩
  | .hbm, ⟨78, _⟩ => ⟨S1600000x1, .i32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S_, .f32⟩
  | .hbm, ⟨92, _⟩ => ⟨S50000x128, .f32⟩
  | .hbm, ⟨93, _⟩ => ⟨S1600000x1, .i32⟩
  | .hbm, ⟨94, _⟩ => ⟨S50000x128, .f32⟩
  | .hbm, ⟨95, _⟩ => ⟨S50000x2, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x1, .f32⟩
  | .local _ .vmem, ⟨14, _⟩ => ⟨S10000x1, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x1, .f32⟩
  | .local _ .vmem, ⟨25, _⟩ => ⟨S10000x1, .f32⟩
  | .local _ .vmem, ⟨26, _⟩ => ⟨S10000x128, .f32⟩
  | .local _ .vmem, ⟨27, _⟩ => ⟨S10000x128, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S128x2, .f32⟩
  | .local _ .vmem, ⟨32, _⟩ => ⟨S2, .f32⟩
  | .local _ .vmem, ⟨33, _⟩ => ⟨S10000x2, .f32⟩
  | .local _ .vmem, ⟨34, _⟩ => ⟨S10000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_c_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_v38 : Ref sig .tc := ⟨.hbm, 68, rfl⟩
abbrev main_v39 : Ref sig .tc := ⟨.hbm, 69, rfl⟩
abbrev main_c_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_12 : Ref sig .tc := ⟨.hbm, 82, rfl⟩
abbrev main_v50 : Ref sig .tc := ⟨.hbm, 83, rfl⟩
abbrev main_v51 : Ref sig .tc := ⟨.hbm, 84, rfl⟩
abbrev main_c_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S10000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S10000x128_S128x128_S10000x128_1_0_0_1_n_n_wf : DotDims.WF S10000x128 S128x128 S10000x128 [1] [0] [0] [1] [] []
  dot_S10000x128_S128x2_S10000x2_1_0_0_1_n_n_wf : DotDims.WF S10000x128 S128x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x2.size a ≤ S128x2.size a
  hwx2_6 : ∀ i : grid2.Coords, EltTy.bits .f32 = 32 ∨ (Rect.block (s := S128x2) S128x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2.size a ≤ S2.size a
  hwx2_7 : ∀ i : grid2.Coords, EltTy.bits .f32 = 32 ∨ (Rect.block (s := S2) S2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x2.size a ≤ S50000x2.size a
  hwx2_8 : ∀ i : grid2.Coords, EltTy.bits .f32 = 32 ∨ (Rect.block (s := S50000x2) S10000x2.size (cc2_transform_8 i) (hinb2_8 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf

abbrev win0_0 : Pipeline.Window sig grid0 :=
  Pipeline.Window.ofSpec (Memref.whole main_v37) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v59) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S128x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S10000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩
abbrev S50000x2 : Shape := ⟨2, ![50000, 2]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S50000x128, .f32⟩
  | 2 => ⟨S2x1600000, .i32⟩
  | 3 => ⟨S2x1600000, .i32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x2, .f32⟩
  | 17 => ⟨S2, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S50000x128, .f32⟩
  | 33 => ⟨S1600000x1, .i32⟩
  | 34 => ⟨S50000x128, .f32⟩
  | 35 => ⟨S_, .f32⟩
  | 36 => ⟨S1600000, .f32⟩
  | 37 => ⟨S_, .f32⟩
  | 38 => ⟨S50000, .f32⟩
  | 39 => ⟨S1600000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S50000x128, .f32⟩
  | 53 => ⟨S1x1600000, .i32⟩
  | 54 => ⟨S1600000, .i32⟩
  | 55 => ⟨S1x1600000, .i32⟩
  | 56 => ⟨S1600000, .i32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S50000x128, .f32⟩
  | 68 => ⟨S1600000x1, .i32⟩
  | 69 => ⟨S50000x128, .f32⟩
  | 70 => ⟨S_, .f32⟩
  | 71 => ⟨S1600000, .f32⟩
  | 72 => ⟨S_, .f32⟩
  | 73 => ⟨S50000, .f32⟩
  | 74 => ⟨S1600000x1, .i32⟩
  | 75 => ⟨S50000, .f32⟩
  | 76 => ⟨S_, .f32⟩
  | 77 => ⟨S50000, .f32⟩
  | 78 => ⟨S50000, .f32⟩
  | 79 => ⟨S50000x1, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S1x1600000, .i32⟩
  | 95 => ⟨S1600000, .i32⟩
  | 96 => ⟨S1x1600000, .i32⟩
  | 97 => ⟨S1600000, .i32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S50000x128, .f32⟩
  | 109 => ⟨S1600000x1, .i32⟩
  | 110 => ⟨S50000x128, .f32⟩
  | 111 => ⟨S_, .f32⟩
  | 112 => ⟨S1600000, .f32⟩
  | 113 => ⟨S_, .f32⟩
  | 114 => ⟨S50000, .f32⟩
  | 115 => ⟨S1600000x1, .i32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x2, .f32⟩
  | 2 => ⟨S1x2, .f32⟩
  | 3 => ⟨S50000x2, .f32⟩
  | 4 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_4 : Ref sig .tc := ⟨.hbm, 57, rfl⟩
abbrev main_v33 : Ref sig .tc := ⟨.hbm, 58, rfl⟩
abbrev main_v34 : Ref sig .tc := ⟨.hbm, 59, rfl⟩
abbrev main_c_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call0_cst : Ref sig .tc := ⟨.hbm, 88, rfl⟩
abbrev main_call0_v0 : Ref sig .tc := ⟨.hbm, 89, rfl⟩
abbrev main_v58 : Ref sig .tc := ⟨.hbm, 90, rfl⟩
abbrev main_call1_cst : Ref sig .tc := ⟨.hbm, 91, rfl⟩
abbrev main_call1_v0 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_10 : Ref sig .tc := ⟨.hbm, 98, rfl⟩
abbrev main_v64 : Ref sig .tc := ⟨.hbm, 99, rfl⟩
abbrev main_v65 : Ref sig .tc := ⟨.hbm, 100, rfl⟩
abbrev main_c_11 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_cst_14 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KRun.lean ====
/-
  The idealized kernel's run with its result named.

  @main is five segments: the host operations before the first launch, the two layer-one launches, the host operations
  between (the second aggregation), and the final launch. The buffer contents at each segment boundary are a fold from
  the launch memory; at the return every unscoped buffer holds the last boundary's contents. So the result buffer ends
  at the last boundary's contents there, and each argument ends as launched.
-/
import proofs.«111684_j45689862094941_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and every
    argument as launched. -/
theorem run : θ_run defs (onTc (τ := τ) (main (F := F))) ⟨m, fun _ => 0, ρ⟩ (fun r => ∀ c : Dev nD,
      r.2.mem ((c.tc : Thread nD τ).loc main_v60) = W5 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v60 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c)⟩)

end Cert.KernelIdeal.KRun

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«111684_j45689862094941_2_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«111684_j45689862094941_2_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibSageSum.lean ====
/-
  One mean-aggregation graph layer on the extended reals whose two products are added one after the other, as a
  whole-array function, and its two spellings.

  For `M` nodes with `K` input features: `A` holds each node's summed neighbour features, `v` an `M × 1` column of
  per-node factors, `H` the nodes' own features, `Wl` and `Wr` two `K × N` weights and `b` a bias of length `N`.
  The layer before its positive part has, at node `p` and output feature `q`, the entry

      ((∑ k, (A (p, k) · v (p, 0)) · Wl (k, q)) + b q) + ∑ k, H (p, k) · Wr (k, q)

  (`sagePre`): the bias joins the first product before the second product is added, which is the order both spellings
  below use, so no rearrangement of a sum of extended reals is needed.

  * A vector unit spells it on a block of rows as the column repeated along the lanes, a product of entries, a matrix
    product into a zero accumulator, the bias viewed as a `1 × N` row and repeated down the rows, a sum, a second matrix
    product into zero and a sum (`unit_sagePre`); a further product plus a bias row is a linear layer (`unit_lin`).
  * The host spells it with a QUOTIENT: each row of `A` divided by a per-node divisor `mx` (a vector of length `M` made a
    column and spread along the features), two `dot_general`s and the bias broadcast in two steps (`host_sagePre`). The
    quotient by `mx p` is the product with `v (p, 0)` whenever that holds of every extended real (`hv`) — which it does
    when `mx p` is a non-zero real and `v (p, 0)` its reciprocal (`div_eq_mul_recip`).
  * An entry depends on one row of `A`, `v` and `H` only, so a block of rows computes the whole array's entries at
    those rows (`sagePre_rows`, `lin_rows`).
-/
import Idealize.ShloMosaic.Lib.ValueIdx
import Idealize.ShloMosaic.Lib.Pipeline.Value
import Idealize.ShloMosaic.Lib.IdealHost
import Idealize.ShloMosaic.PureOps.Ideal.Laws
import proofs.«111684_j45689862094941_2_alg».proof.Proof.LibDense
import proofs.«111684_j45689862094941_2_alg».proof.Proof.LibColumn

noncomputable section

open scoped BigOperators

namespace Cert.Lib.SageSum

open Idealize.ShloMosaic Idealize.ShloMosaic.ValueIdx Cert.Lib.BiasDot Cert.Lib.Dense

variable {m M K N N' : Nat}

/-- The layer before its positive part. -/
def sagePre (A : (⟨2, ![M, K]⟩ : Shape).Idx → EReal) (v : (⟨2, ![M, 1]⟩ : Shape).Idx → EReal)
    (H : (⟨2, ![M, K]⟩ : Shape).Idx → EReal) (Wl : (⟨2, ![K, N]⟩ : Shape).Idx → EReal)
    (b : (⟨1, ![N]⟩ : Shape).Idx → EReal) (Wr : (⟨2, ![K, N]⟩ : Shape).Idx → EReal) :
    (⟨2, ![M, N]⟩ : Shape).Idx → EReal :=
  fun i => ((∑ k : Fin K, (A (ix2 (i 0) k) * v (ix2 (i 0) (0 : Fin 1))) * Wl (ix2 k (i 1))) + b (ix1 (i 1)))
    + ∑ k : Fin K, H (ix2 (i 0) k) * Wr (ix2 k (i 1))

theorem sagePre_apply (A : (⟨2, ![M, K]⟩ : Shape).Idx → EReal) (v : (⟨2, ![M, 1]⟩ : Shape).Idx → EReal)
    (H : (⟨2, ![M, K]⟩ : Shape).Idx → EReal) (Wl : (⟨2, ![K, N]⟩ : Shape).Idx → EReal)
    (b : (⟨1, ![N]⟩ : Shape).Idx → EReal) (Wr : (⟨2, ![K, N]⟩ : Shape).Idx → EReal) (p : Fin M) (q : Fin N) :
    sagePre A v H Wl b Wr (ix2 p q)
      = ((∑ k : Fin K, (A (ix2 p k) * v (ix2 p (0 : Fin 1))) * Wl (ix2 k q)) + b (ix1 q))
        + ∑ k : Fin K, H (ix2 p k) * Wr (ix2 k q) := rfl

/-! ## A vector unit's spelling, on a block of rows -/

/-- The body's layer before the positive part. -/
theorem unit_sagePre (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![M, 1]⟩ .f32) (x2 : FVec Ideal ⟨2, ![M, K]⟩ .f32)
    (x3 : FVec Ideal ⟨2, ![K, N]⟩ .f32) (x4 : FVec Ideal ⟨1, ![N]⟩ .f32) (x5 : FVec Ideal ⟨2, ![K, N]⟩ .f32)
    (hc0 : (⟨2, ![M, K]⟩ : Shape).ShapeCasts ⟨2, ![M, K]⟩) (hc1 : (⟨2, ![M, 1]⟩ : Shape).ShapeCasts ⟨2, ![M, 1]⟩)
    (hbc : (⟨2, ![M, 1]⟩ : Shape).Broadcasts ⟨2, ![M, K]⟩)
    (hcb : (⟨1, ![N]⟩ : Shape).ShapeCasts ⟨2, ![1, N]⟩) (hbr : (⟨2, ![1, N]⟩ : Shape).Broadcasts ⟨2, ![M, N]⟩) :
    addf (addf
        (FloatOps.matmul d none (mulf (shapeCast ⟨2, ![M, K]⟩ x0 hc0)
            (broadcastTo ⟨2, ![M, K]⟩ (shapeCast ⟨2, ![M, 1]⟩ x1 hc1) hbc)) x3
          (constant ⟨2, ![M, N]⟩ .f32 0x00000000#32))
        (broadcastTo ⟨2, ![M, N]⟩ (shapeCast ⟨2, ![1, N]⟩ x4 hcb) hbr))
      (FloatOps.matmul d none x2 x5 (constant ⟨2, ![M, N]⟩ .f32 0x00000000#32))
    = sagePre x0 x1 x2 x3 x4 x5 := by
  subst hd
  rw [shapeCast_self, shapeCast_self]
  funext i
  obtain ⟨p, q, rfl⟩ : ∃ (p : Fin M) (q : Fin N), i = ix2 p q := ⟨i 0, i 1, eq_ix2 i⟩
  rw [addf_apply, biasDot_apply, Cert.Lib.PlainDot.matmul_zero_apply, sagePre_apply]
  refine congrArg (fun z => (z + x4 (ix1 q)) + ∑ k : Fin K, x2 (ix2 p k) * x5 (ix2 k q))
    (Finset.sum_congr rfl fun k _ => ?_)
  rw [mulf_apply, Cert.Lib.Column.colBroadcast_apply]

/-- A product into zero plus a bias viewed as a row and repeated down the rows is the linear layer. -/
theorem unit_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (b : FVec Ideal ⟨1, ![N]⟩ .f32)
    (hc : (⟨1, ![N]⟩ : Shape).ShapeCasts ⟨2, ![1, N]⟩) (hb : (⟨2, ![1, N]⟩ : Shape).Broadcasts ⟨2, ![M, N]⟩) :
    addf (FloatOps.matmul d none X W (constant ⟨2, ![M, N]⟩ .f32 0x00000000#32))
        (broadcastTo ⟨2, ![M, N]⟩ (shapeCast ⟨2, ![1, N]⟩ b hc) hb)
    = lin X W b := by
  subst hd
  funext i
  obtain ⟨p, q, rfl⟩ : ∃ (p : Fin M) (q : Fin N), i = ix2 p q := ⟨i 0, i 1, eq_ix2 i⟩
  exact biasDot_apply none X W b hc hb p q

/-! ## The host's spelling -/

/-- A vector of length `M` made an `M × 1` column and spread along `K` columns reads, at `(p, k)`, the vector at `p`. -/
theorem hostColSpread_apply {α : Type} (mx : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, K]⟩ ![0, 1]) (p : Fin M) (k : Fin K) :
    broadcastInDim ⟨2, ![M, K]⟩ ![0, 1] h2 (broadcastInDim ⟨2, ![M, 1]⟩ ![0] h1 mx) (ix2 p k) = mx (ix1 p) := by
  refine (broadcastInDim_apply ![0, 1] h2 _ (ix2 p k) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine broadcastInDim_apply ![0] h1 mx (ix2 p (0 : Fin 1)) (ix1 p) (fun a => ?_)
    match a with
    | ⟨0, _⟩ =>
      show p.val = if M = 1 then 0 else p.val
      split
      · have := p.isLt; omega
      · rfl

/-- A vector of length `M` made an `M × 1` column reads, at `(p, 0)`, the vector at `p`. -/
theorem hostCol_apply {α : Type} (mx : (⟨1, ![M]⟩ : Shape).Idx → α)
    (h1 : (⟨1, ![M]⟩ : Shape).BroadcastsInDim ⟨2, ![M, 1]⟩ ![0]) (p : Fin M) :
    broadcastInDim ⟨2, ![M, 1]⟩ ![0] h1 mx (ix2 p (0 : Fin 1)) = mx (ix1 p) := by
  refine broadcastInDim_apply ![0] h1 mx (ix2 p (0 : Fin 1)) (ix1 p) (fun a => ?_)
  match a with
  | ⟨0, _⟩ =>
    show p.val = if M = 1 then 0 else p.val
    split
    · have := p.isLt; omega
    · rfl

/-- The host's layer before the positive part: the aggregate divided by the spread divisor, against `Wl`, plus the bias,
    plus the own features against `Wr` — the quotient by `mx p` being the product with `v (p, 0)`. -/
theorem host_sagePre (d : DotDims ⟨2, ![M, K]⟩ ⟨2, ![K, N]⟩ ⟨2, ![M, N]⟩) (hd : d = DotDims.plain M K N)
    (A : FVec Ideal ⟨2, ![M, K]⟩ .f32) (mx : FVec Ideal ⟨1, ![M]⟩ .f32) (H : FVec Ideal ⟨2, ![M, K]⟩ .f32)
    (Wl : FVec Ideal ⟨2, ![K, N]⟩ .f32) (b : FVec Ideal ⟨1, ![N]⟩ .f32) (Wr : FVec Ideal ⟨2, ![K, N]⟩ .f32)
    (hm1 : (⟨1, ![M]⟩ : Shape).BroadcastsInDim ⟨2, ![M, 1]⟩ ![0])
    (hm2 : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (v : (⟨2, ![M, 1]⟩ : Shape).Idx → EReal)
    (hv : ∀ (p : Fin M) (a : EReal), Ideal.div a (mx (ix1 p)) = a * v (ix2 p (0 : Fin 1))) :
    addf (addf (Host.dotGeneral d none
            (Host.divf A (broadcastInDim ⟨2, ![M, K]⟩ ![0, 1] hm2 (broadcastInDim ⟨2, ![M, 1]⟩ ![0] hm1 mx))) Wl)
          (broadcastInDim ⟨2, ![M, N]⟩ ![0, 1] h2 (broadcastInDim ⟨2, ![1, N]⟩ ![1] h1 b)))
      (Host.dotGeneral d none H Wr)
    = sagePre A v H Wl b Wr := by
  subst hd
  funext i
  obtain ⟨p, q, rfl⟩ : ∃ (p : Fin M) (q : Fin N), i = ix2 p q := ⟨i 0, i 1, eq_ix2 i⟩
  rw [addf_apply, addf_apply, hostRow_apply, sagePre_apply]
  refine congrArg₂ (fun y z => (y + b (ix1 q)) + z) ?_ (Cert.Lib.PlainDot.dotGeneral_apply none _ H Wr p q)
  refine (Cert.Lib.PlainDot.dotGeneral_apply none _ _ Wl p q).trans (Finset.sum_congr rfl fun k _ => ?_)
  rw [hostDivf_apply, hostColSpread_apply, hv]

/-- The host's linear layer: a `dot_general` plus the bias broadcast in two steps. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 b))
    = lin X W b := by
  subst hd
  funext i
  obtain ⟨p, q, rfl⟩ : ∃ (p : Fin M) (q : Fin N), i = ix2 p q := ⟨i 0, i 1, eq_ix2 i⟩
  rw [addf_apply, hostRow_apply]
  exact congrArg (fun z => z + b (ix1 q)) (Cert.Lib.PlainDot.dotGeneral_apply none _ X W p q)

/-- The host's positive part: the maximum with a broadcast zero. -/
theorem host_relu {t : Shape} (X : FVec Ideal t .f32) (dims : Fin 0 → Fin t.rank)
    (h0 : (⟨0, ![]⟩ : Shape).BroadcastsInDim t dims) :
    maximumf X (broadcastInDim t dims h0 (constant ⟨0, ![]⟩ .f32 0x00000000#32)) = relu X := by
  funext i
  rw [maximumf_apply, hostZero_apply]
  rfl

/-- A vector unit's positive part: the maximum with a splat zero. -/
theorem unit_relu {t : Shape} (X : FVec Ideal t .f32) :
    maximumf X (broadcast t (Scalar.ofBits (F := Ideal) .f32 0x00000000#32)) = relu X := by
  funext i
  rw [maximumf_apply, broadcast_apply]
  show max (X i) (Ideal.ofBits .f32 0x00000000#32) = _
  rw [Ideal.ofBits_zero_f32]
  rfl

/-! ## The quotient as a product -/

/-- Dividing by a non-zero real is multiplying by the quotient of one by it. -/
theorem div_eq_mul_recip {r : ℝ} (hr : r ≠ 0) (a : EReal) :
    Ideal.div a (r : EReal) = a * Ideal.div 1 (r : EReal) := by
  rw [Ideal.div_coe hr, Ideal.div_coe hr, one_mul]

/-! ## A block of rows against the whole array -/

/-- An entry of the layer on a block of rows is the entry of the whole array's layer at the matching row. -/
theorem sagePre_rows (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl : (⟨2, ![K, N]⟩ : Shape).Idx → EReal) (b : (⟨1, ![N]⟩ : Shape).Idx → EReal) (Wr : (⟨2, ![K, N]⟩ : Shape).Idx → EReal)
    (p' : Fin m) (p : Fin M) (q : Fin N)
    (h0 : ∀ k : Fin K, x0 (ix2 p' k) = A (ix2 p k)) (h1 : x1 (ix2 p' (0 : Fin 1)) = v (ix2 p (0 : Fin 1)))
    (h2 : ∀ k : Fin K, x2 (ix2 p' k) = H (ix2 p k)) :
    sagePre x0 x1 x2 Wl b Wr (ix2 p' q) = sagePre A v H Wl b Wr (ix2 p q) := by
  rw [sagePre_apply, sagePre_apply, h1]
  simp only [h0, h2]

/-- An entry of a linear layer on a block of rows is the whole array's entry at the matching row. -/
theorem lin_rows (X : (⟨2, ![m, K]⟩ : Shape).Idx → EReal) (Y : (⟨2, ![M, K]⟩ : Shape).Idx → EReal)
    (W : (⟨2, ![K, N]⟩ : Shape).Idx → EReal) (b : (⟨1, ![N]⟩ : Shape).Idx → EReal)
    (p' : Fin m) (p : Fin M) (q : Fin N) (h : ∀ k : Fin K, X (ix2 p' k) = Y (ix2 p k)) :
    lin X W b (ix2 p' q) = lin Y W b (ix2 p q) := by
  rw [lin_apply, lin_apply]
  simp only [h]

/-! ## A block of rows at a row offset -/

/-- The positive part of the layer on the block of rows that starts at row `off`: its entry at `j` is the whole array's
    at the index `i` whose row is `off` plus `j`'s and whose column is `j`'s. -/
theorem relu_sagePre_block (off : Nat)
    (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl : (⟨2, ![K, N]⟩ : Shape).Idx → EReal) (b : (⟨1, ![N]⟩ : Shape).Idx → EReal) (Wr : (⟨2, ![K, N]⟩ : Shape).Idx → EReal)
    (h0 : ∀ (p' : Fin m) (p : Fin M) (k : Fin K), p.val = off + p'.val → x0 (ix2 p' k) = A (ix2 p k))
    (h1 : ∀ (p' : Fin m) (p : Fin M), p.val = off + p'.val → x1 (ix2 p' (0 : Fin 1)) = v (ix2 p (0 : Fin 1)))
    (h2 : ∀ (p' : Fin m) (p : Fin M) (k : Fin K), p.val = off + p'.val → x2 (ix2 p' k) = H (ix2 p k))
    (j : (⟨2, ![m, N]⟩ : Shape).Idx) (i : (⟨2, ![M, N]⟩ : Shape).Idx)
    (hi0 : (i 0).val = off + (j 0).val) (hi1 : (i 1).val = (j 1).val) :
    relu (sagePre x0 x1 x2 Wl b Wr) j = relu (sagePre A v H Wl b Wr) i := by
  obtain ⟨p', q, rfl⟩ : ∃ (p' : Fin m) (q : Fin N), j = ix2 p' q := ⟨j 0, j 1, eq_ix2 j⟩
  obtain ⟨p, q', rfl⟩ : ∃ (p : Fin M) (q' : Fin N), i = ix2 p q' := ⟨i 0, i 1, eq_ix2 i⟩
  obtain rfl : q' = q := Fin.ext hi1
  exact congrArg (fun z => max z 0)
    (sagePre_rows x0 x1 x2 A v H Wl b Wr p' p q' (fun k => h0 p' p k hi0) (h1 p' p hi0) (fun k => h2 p' p k hi0))

/-- The same for a linear layer on top of the layer without a positive part. -/
theorem lin_sagePre_block (off : Nat)
    (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl : (⟨2, ![K, N]⟩ : Shape).Idx → EReal) (b : (⟨1, ![N]⟩ : Shape).Idx → EReal) (Wr : (⟨2, ![K, N]⟩ : Shape).Idx → EReal)
    (Wc : (⟨2, ![N, N']⟩ : Shape).Idx → EReal) (bc : (⟨1, ![N']⟩ : Shape).Idx → EReal)
    (h0 : ∀ (p' : Fin m) (p : Fin M) (k : Fin K), p.val = off + p'.val → x0 (ix2 p' k) = A (ix2 p k))
    (h1 : ∀ (p' : Fin m) (p : Fin M), p.val = off + p'.val → x1 (ix2 p' (0 : Fin 1)) = v (ix2 p (0 : Fin 1)))
    (h2 : ∀ (p' : Fin m) (p : Fin M) (k : Fin K), p.val = off + p'.val → x2 (ix2 p' k) = H (ix2 p k))
    (j : (⟨2, ![m, N']⟩ : Shape).Idx) (i : (⟨2, ![M, N']⟩ : Shape).Idx)
    (hi0 : (i 0).val = off + (j 0).val) (hi1 : (i 1).val = (j 1).val) :
    lin (sagePre x0 x1 x2 Wl b Wr) Wc bc j = lin (sagePre A v H Wl b Wr) Wc bc i := by
  obtain ⟨p', q, rfl⟩ : ∃ (p' : Fin m) (q : Fin N'), j = ix2 p' q := ⟨j 0, j 1, eq_ix2 j⟩
  obtain ⟨p, q', rfl⟩ : ∃ (p : Fin M) (q' : Fin N'), i = ix2 p q' := ⟨i 0, i 1, eq_ix2 i⟩
  obtain rfl : q' = q := Fin.ext hi1
  exact lin_rows _ _ Wc bc p' p q' fun k =>
    sagePre_rows x0 x1 x2 A v H Wl b Wr p' p k (fun k' => h0 p' p k' hi0) (h1 p' p hi0) (fun k' => h2 p' p k' hi0)

end Cert.Lib.SageSum

end
-- ==== Proof.KReg0.lean ====
/-
  What launch 0 (a layer-one combine) leaves in its result array, as one function of the arrays it finds.

  The grid has five points; point `t` works on rows `10000·t … 10000·t + 9999`: it fetches those rows of the summed
  neighbour features, of the per-node factor column and of the nodes' own features, the two weights and the bias whole, and
  writes back those rows of the result. On a block the body computes the positive part of
  `((rows · factor) · Wl + b) + own · Wr`, and an entry of that depends on one row only, so block `t` of the result is
  block `t` of the same expression of the whole arrays; the five blocks tile the result.
-/
import proofs.«111684_j45689862094941_2_alg».proof.Proof.Gen.KernelIdeal.Frame
import proofs.«111684_j45689862094941_2_alg».proof.Proof.LibSageSum
import Idealize.ShloMosaic.Lib.Pipeline.Value
import Idealize.ShloMosaic.Lib.ValueIdx

set_option maxRecDepth 16384

noncomputable section

open scoped BigOperators

namespace Cert.KernelIdeal.KReg0

open Cert.KernelIdeal Cert.KernelIdeal.Facts₀ Cert.KernelIdeal.Gen
open Idealize.ShloMosaic Idealize.ShloMosaic.TcCoe Idealize.SL.Sem Idealize.ShloMosaic.ValueIdx
open Idealize.ShloMosaic.Pipeline (Dat)
open Cert.Lib.SageSum Cert.Lib.Dense Cert.Lib.BiasDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the positive part of the layer of its loaded blocks. -/
theorem pay_eq (x0 : Vec Ideal S10000x128 .f32) (x1 : Vec Ideal S10000x1 .f32) (x2 : Vec Ideal S10000x128 .f32)
    (wl wr : Vec Ideal S128x128 .f32) (bias : Vec Ideal S128 .f32) :
    k0_pay1 x0 x1 x2 wl wr bias = relu (sagePre x0 x1 x2 wl bias wr) := by
  unfold k0_pay1
  exact (unit_relu _).trans (congrArg relu
    (unit_sagePre dot_S10000x128_S128x128_S10000x128_1_0_0_1_n_n rfl x0 x1 x2 wl bias wr _ _ _ _ _))

/-- The result array as one function of the arrays the launch finds. -/
def G (c : Dev nD) : S50000x128.Idx → EReal :=
  relu (sagePre (V c main_v37) (V c main_v17) (V c main_arg1) (V c main_arg4) (V c main_arg5) (V c main_arg6))

/-- The printed index maps over the five grid points: the row-blocked windows sit at block row `t`, the weights and the
    bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point `t` is rows `10000·t …` of its array. -/
theorem blk_0 (c : Dev nD) (t : Fin cfg0.N) (p' : Fin 10000) (p : Fin 50000) (k : Fin 128)
    (hp : p.val = 10000 * t.val + p'.val) :
    (iblk0 V c 0 t : Vec Ideal S10000x128 .f32) (ix2 p' k) = (V c main_v37 : S50000x128.Idx → EReal) (ix2 p k) := by
  obtain ⟨e00, e01, -⟩ := idx_facts t
  unfold iblk0
  rw [View.read_apply]
  show V c main_v37 _ = V c main_v37 _
  refine congrArg (V c main_v37) ?_
  funext a
  apply Fin.ext
  match a with
  | ⟨0, _⟩ => show win0_0.index t (0 : Fin 2) * 10000 + 1 * p'.val = p.val; rw [e00, hp]; omega
  | ⟨1, _⟩ => show win0_0.index t (1 : Fin 2) * 128 + 1 * k.val = k.val; rw [e01]; omega

/-- Window 1's block at point `t` is rows `10000·t …` of the factor column. -/
theorem blk_1 (c : Dev nD) (t : Fin cfg0.N) (p' : Fin 10000) (p : Fin 50000)
    (hp : p.val = 10000 * t.val + p'.val) :
    (iblk0 V c 1 t : Vec Ideal S10000x1 .f32) (ix2 p' (0 : Fin 1)) = (V c main_v17 : S50000x1.Idx → EReal) (ix2 p (0 : Fin 1)) := by
  obtain ⟨-, -, e10, e11, -⟩ := idx_facts t
  unfold iblk0
  rw [View.read_apply]
  show V c main_v17 _ = V c main_v17 _
  refine congrArg (V c main_v17) ?_
  funext a
  apply Fin.ext
  match a with
  | ⟨0, _⟩ => show win0_1.index t (0 : Fin 2) * 10000 + 1 * p'.val = p.val; rw [e10, hp]; omega
  | ⟨1, _⟩ => show win0_1.index t (1 : Fin 2) * 1 + 1 * 0 = 0; rw [e11]

/-- Window 2's block at point `t` is rows `10000·t …` of its array. -/
theorem blk_2 (c : Dev nD) (t : Fin cfg0.N) (p' : Fin 10000) (p : Fin 50000) (k : Fin 128)
    (hp : p.val = 10000 * t.val + p'.val) :
    (iblk0 V c 2 t : Vec Ideal S10000x128 .f32) (ix2 p' k) = (V c main_arg1 : S50000x128.Idx → EReal) (ix2 p k) := by
  obtain ⟨-, -, -, -, e20, e21, -⟩ := idx_facts t
  unfold iblk0
  rw [View.read_apply]
  show V c main_arg1 _ = V c main_arg1 _
  refine congrArg (V c main_arg1) ?_
  funext a
  apply Fin.ext
  match a with
  | ⟨0, _⟩ => show win0_2.index t (0 : Fin 2) * 10000 + 1 * p'.val = p.val; rw [e20, hp]; omega
  | ⟨1, _⟩ => show win0_2.index t (1 : Fin 2) * 128 + 1 * k.val = k.val; rw [e21]; omega

/-- Windows 3, 4 and 5 hold the two weights and the bias whole at every point. -/
theorem blk_3 (c : Dev nD) (t : Fin cfg0.N) : (iblk0 V c 3 t : Vec Ideal S128x128 .f32) = (V c main_arg4 : S128x128.Idx → EReal) := by
  obtain ⟨-, -, -, -, -, -, e30, e31, -⟩ := idx_facts t
  funext y
  unfold iblk0
  rw [View.read_apply]
  show V c main_arg4 _ = V c main_arg4 _
  refine congrArg (V c main_arg4) ?_
  funext a
  apply Fin.ext
  match a with
  | ⟨0, _⟩ => show win0_3.index t (0 : Fin 2) * 128 + 1 * (y 0).val = (y 0).val; rw [e30]; omega
  | ⟨1, _⟩ => show win0_3.index t (1 : Fin 2) * 128 + 1 * (y 1).val = (y 1).val; rw [e31]; omega

theorem blk_4 (c : Dev nD) (t : Fin cfg0.N) : (iblk0 V c 4 t : Vec Ideal S128 .f32) = (V c main_arg5 : S128.Idx → EReal) := by
  obtain ⟨-, -, -, -, -, -, -, -, e40, -⟩ := idx_facts t
  funext y
  unfold iblk0
  rw [View.read_apply]
  show V c main_arg5 _ = V c main_arg5 _
  refine congrArg (V c main_arg5) ?_
  funext a
  apply Fin.ext
  match a with
  | ⟨0, _⟩ => show win0_4.index t (0 : Fin 1) * 128 + 1 * (y 0).val = (y 0).val; rw [e40]; omega

theorem blk_5 (c : Dev nD) (t : Fin cfg0.N) : (iblk0 V c 5 t : Vec Ideal S128x128 .f32) = (V c main_arg6 : S128x128.Idx → EReal) := by
  obtain ⟨-, -, -, -, -, -, -, -, -, e50, e51, -⟩ := idx_facts t
  funext y
  unfold iblk0
  rw [View.read_apply]
  show V c main_arg6 _ = V c main_arg6 _
  refine congrArg (V c main_arg6) ?_
  funext a
  apply Fin.ext
  match a with
  | ⟨0, _⟩ => show win0_5.index t (0 : Fin 2) * 128 + 1 * (y 0).val = (y 0).val; rw [e50]; omega
  | ⟨1, _⟩ => show win0_5.index t (1 : Fin 2) * 128 + 1 * (y 1).val = (y 1).val; rw [e51]; omega

/-- What point `t` writes back is block `t` of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S10000x128) hz2, View.ld_unit_zero (S := S10000x1) hz2,
    View.ld_unit_zero (S := S128x128) hz2, View.ld_unit_zero (S := S128) hz1]
  rw [pay_eq, blk_3, blk_4, blk_5]
  obtain ⟨-, -, -, -, -, -, -, -, -, -, -, e60, e61⟩ := idx_facts t
  funext j
  refine relu_sagePre_block (10000 * t.val) _ _ _ _ _ _ _ _ _
    (fun p' p k hp => blk_0 V c t p' p k hp) (fun p' p hp => blk_1 V c t p' p hp) (fun p' p k hp => blk_2 V c t p' p k hp)
    j _ ?_ ?_
  · show win0_6.index t (0 : Fin 2) * 10000 + 1 * (j 0).val = 10000 * t.val + (j 0).val; rw [e60]; omega
  · show win0_6.index t (1 : Fin 2) * 128 + 1 * (j 1).val = (j 1).val; rw [e61]; omega

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v48).slice (win0_6.rect t)).set ↔ _
  rw [View.set_slice_whole, Rect.mem_set_unit]
  exact Iff.rfl

/-- THE RESULT ARRAY after the launch: the five row blocks tile it. -/
theorem final (c : Dev nD) : (dat0 V c).arrAt 6 cfg0.N = G V c :=
  (dat0 V c).arrAt_eq_of_cover 6 (G V c) (fun t _ => flushed_eq V c t) fun i => by
    have hi0 : (i 0).val < 50000 := (i 0).isLt
    have hi1 : (i 1).val < 128 := (i 1).isLt
    have hN : cfg0.N = 5 := N_0
    obtain ⟨t, ht⟩ : ∃ t : Fin cfg0.N, t.val = (i 0).val / 10000 := ⟨⟨(i 0).val / 10000, by rw [hN]; omega⟩, rfl⟩
    refine ⟨t, flush0_6 t, ?_⟩
    rw [mem_blk]
    obtain ⟨-, -, -, -, -, -, -, -, -, -, -, e0, e1⟩ := idx_facts t
    intro a
    match a with
    | ⟨0, _⟩ => show win0_6.index t (0 : Fin 2) * 10000 ≤ (i 0).val ∧ (i 0).val < win0_6.index t (0 : Fin 2) * 10000 + 10000; rw [e0]; omega
    | ⟨1, _⟩ => show win0_6.index t (1 : Fin 2) * 128 ≤ (i 1).val ∧ (i 1).val < win0_6.index t (1 : Fin 2) * 128 + 128; rw [e1]; omega

end Cert.KernelIdeal.KReg0

end
-- ==== Proof.KReg1.lean ====
/-
  What launch 1 (a layer-one combine) leaves in its result array, as one function of the arrays it finds.

  The grid has five points; point `t` works on rows `10000·t … 10000·t + 9999`: it fetches those rows of the summed
  neighbour features, of the per-node factor column and of the nodes' own features, the two weights and the bias whole, and
  writes back those rows of the result. On a block the body computes the positive part of
  `((rows · factor) · Wl + b) + own · Wr`, and an entry of that depends on one row only, so block `t` of the result is
  block `t` of the same expression of the whole arrays; the five blocks tile the result.
-/
import proofs.«111684_j45689862094941_2_alg».proof.Proof.Gen.KernelIdeal.Frame
import proofs.«111684_j45689862094941_2_alg».proof.Proof.LibSageSum
import Idealize.ShloMosaic.Lib.Pipeline.Value
import Idealize.ShloMosaic.Lib.ValueIdx

set_option maxRecDepth 16384

noncomputable section

open scoped BigOperators

namespace Cert.KernelIdeal.KReg1

open Cert.KernelIdeal Cert.KernelIdeal.Facts₀ Cert.KernelIdeal.Gen
open Idealize.ShloMosaic Idealize.ShloMosaic.TcCoe Idealize.SL.Sem Idealize.ShloMosaic.ValueIdx
open Idealize.ShloMosaic.Pipeline (Dat)
open Cert.Lib.SageSum Cert.Lib.Dense Cert.Lib.BiasDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the positive part of the layer of its loaded blocks. -/
theorem pay_eq (x0 : Vec Ideal S10000x128 .f32) (x1 : Vec Ideal S10000x1 .f32) (x2 : Vec Ideal S10000x128 .f32)
    (wl wr : Vec Ideal S128x128 .f32) (bias : Vec Ideal S128 .f32) :
    k1_pay1 x0 x1 x2 wl wr bias = relu (sagePre x0 x1 x2 wl bias wr) := by
  unfold k1_pay1
  exact (unit_relu _).trans (congrArg relu
    (unit_sagePre dot_S10000x128_S128x128_S10000x128_1_0_0_1_n_n rfl x0 x1 x2 wl bias wr _ _ _ _ _))

/-- The result array as one function of the arrays the launch finds. -/
def G (c : Dev nD) : S50000x128.Idx → EReal :=
  relu (sagePre (V c main_v47) (V c main_v27) (V c main_arg0) (V c main_arg7) (V c main_arg8) (V c main_arg9))

/-- The printed index maps over the five grid points: the row-blocked windows sit at block row `t`, the weights and the
    bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point `t` is rows `10000·t …` of its array. -/
theorem blk_0 (c : Dev nD) (t : Fin cfg1.N) (p' : Fin 10000) (p : Fin 50000) (k : Fin 128)
    (hp : p.val = 10000 * t.val + p'.val) :
    (iblk1 V c 0 t : Vec Ideal S10000x128 .f32) (ix2 p' k) = (V c main_v47 : S50000x128.Idx → EReal) (ix2 p k) := by
  obtain ⟨e00, e01, -⟩ := idx_facts t
  unfold iblk1
  rw [View.read_apply]
  show V c main_v47 _ = V c main_v47 _
  refine congrArg (V c main_v47) ?_
  funext a
  apply Fin.ext
  match a with
  | ⟨0, _⟩ => show win1_0.index t (0 : Fin 2) * 10000 + 1 * p'.val = p.val; rw [e00, hp]; omega
  | ⟨1, _⟩ => show win1_0.index t (1 : Fin 2) * 128 + 1 * k.val = k.val; rw [e01]; omega

/-- Window 1's block at point `t` is rows `10000·t …` of the factor column. -/
theorem blk_1 (c : Dev nD) (t : Fin cfg1.N) (p' : Fin 10000) (p : Fin 50000)
    (hp : p.val = 10000 * t.val + p'.val) :
    (iblk1 V c 1 t : Vec Ideal S10000x1 .f32) (ix2 p' (0 : Fin 1)) = (V c main_v27 : S50000x1.Idx → EReal) (ix2 p (0 : Fin 1)) := by
  obtain ⟨-, -, e10, e11, -⟩ := idx_facts t
  unfold iblk1
  rw [View.read_apply]
  show V c main_v27 _ = V c main_v27 _
  refine congrArg (V c main_v27) ?_
  funext a
  apply Fin.ext
  match a with
  | ⟨0, _⟩ => show win1_1.index t (0 : Fin 2) * 10000 + 1 * p'.val = p.val; rw [e10, hp]; omega
  | ⟨1, _⟩ => show win1_1.index t (1 : Fin 2) * 1 + 1 * 0 = 0; rw [e11]

/-- Window 2's block at point `t` is rows `10000·t …` of its array. -/
theorem blk_2 (c : Dev nD) (t : Fin cfg1.N) (p' : Fin 10000) (p : Fin 50000) (k : Fin 128)
    (hp : p.val = 10000 * t.val + p'.val) :
    (iblk1 V c 2 t : Vec Ideal S10000x128 .f32) (ix2 p' k) = (V c main_arg0 : S50000x128.Idx → EReal) (ix2 p k) := by
  obtain ⟨-, -, -, -, e20, e21, -⟩ := idx_facts t
  unfold iblk1
  rw [View.read_apply]
  show V c main_arg0 _ = V c main_arg0 _
  refine congrArg (V c main_arg0) ?_
  funext a
  apply Fin.ext
  match a with
  | ⟨0, _⟩ => show win1_2.index t (0 : Fin 2) * 10000 + 1 * p'.val = p.val; rw [e20, hp]; omega
  | ⟨1, _⟩ => show win1_2.index t (1 : Fin 2) * 128 + 1 * k.val = k.val; rw [e21]; omega

/-- Windows 3, 4 and 5 hold the two weights and the bias whole at every point. -/
theorem blk_3 (c : Dev nD) (t : Fin cfg1.N) : (iblk1 V c 3 t : Vec Ideal S128x128 .f32) = (V c main_arg7 : S128x128.Idx → EReal) := by
  obtain ⟨-, -, -, -, -, -, e30, e31, -⟩ := idx_facts t
  funext y
  unfold iblk1
  rw [View.read_apply]
  show V c main_arg7 _ = V c main_arg7 _
  refine congrArg (V c main_arg7) ?_
  funext a
  apply Fin.ext
  match a with
  | ⟨0, _⟩ => show win1_3.index t (0 : Fin 2) * 128 + 1 * (y 0).val = (y 0).val; rw [e30]; omega
  | ⟨1, _⟩ => show win1_3.index t (1 : Fin 2) * 128 + 1 * (y 1).val = (y 1).val; rw [e31]; omega

theorem blk_4 (c : Dev nD) (t : Fin cfg1.N) : (iblk1 V c 4 t : Vec Ideal S128 .f32) = (V c main_arg8 : S128.Idx → EReal) := by
  obtain ⟨-, -, -, -, -, -, -, -, e40, -⟩ := idx_facts t
  funext y
  unfold iblk1
  rw [View.read_apply]
  show V c main_arg8 _ = V c main_arg8 _
  refine congrArg (V c main_arg8) ?_
  funext a
  apply Fin.ext
  match a with
  | ⟨0, _⟩ => show win1_4.index t (0 : Fin 1) * 128 + 1 * (y 0).val = (y 0).val; rw [e40]; omega

theorem blk_5 (c : Dev nD) (t : Fin cfg1.N) : (iblk1 V c 5 t : Vec Ideal S128x128 .f32) = (V c main_arg9 : S128x128.Idx → EReal) := by
  obtain ⟨-, -, -, -, -, -, -, -, -, e50, e51, -⟩ := idx_facts t
  funext y
  unfold iblk1
  rw [View.read_apply]
  show V c main_arg9 _ = V c main_arg9 _
  refine congrArg (V c main_arg9) ?_
  funext a
  apply Fin.ext
  match a with
  | ⟨0, _⟩ => show win1_5.index t (0 : Fin 2) * 128 + 1 * (y 0).val = (y 0).val; rw [e50]; omega
  | ⟨1, _⟩ => show win1_5.index t (1 : Fin 2) * 128 + 1 * (y 1).val = (y 1).val; rw [e51]; omega

/-- What point `t` writes back is block `t` of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S10000x128) hz2, View.ld_unit_zero (S := S10000x1) hz2,
    View.ld_unit_zero (S := S128x128) hz2, View.ld_unit_zero (S := S128) hz1]
  rw [pay_eq, blk_3, blk_4, blk_5]
  obtain ⟨-, -, -, -, -, -, -, -, -, -, -, e60, e61⟩ := idx_facts t
  funext j
  refine relu_sagePre_block (10000 * t.val) _ _ _ _ _ _ _ _ _
    (fun p' p k hp => blk_0 V c t p' p k hp) (fun p' p hp => blk_1 V c t p' p hp) (fun p' p k hp => blk_2 V c t p' p k hp)
    j _ ?_ ?_
  · show win1_6.index t (0 : Fin 2) * 10000 + 1 * (j 0).val = 10000 * t.val + (j 0).val; rw [e60]; omega
  · show win1_6.index t (1 : Fin 2) * 128 + 1 * (j 1).val = (j 1).val; rw [e61]; omega

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v49).slice (win1_6.rect t)).set ↔ _
  rw [View.set_slice_whole, Rect.mem_set_unit]
  exact Iff.rfl

/-- THE RESULT ARRAY after the launch: the five row blocks tile it. -/
theorem final (c : Dev nD) : (dat1 V c).arrAt 6 cfg1.N = G V c :=
  (dat1 V c).arrAt_eq_of_cover 6 (G V c) (fun t _ => flushed_eq V c t) fun i => by
    have hi0 : (i 0).val < 50000 := (i 0).isLt
    have hi1 : (i 1).val < 128 := (i 1).isLt
    have hN : cfg1.N = 5 := N_1
    obtain ⟨t, ht⟩ : ∃ t : Fin cfg1.N, t.val = (i 0).val / 10000 := ⟨⟨(i 0).val / 10000, by rw [hN]; omega⟩, rfl⟩
    refine ⟨t, flush1_6 t, ?_⟩
    rw [mem_blk]
    obtain ⟨-, -, -, -, -, -, -, -, -, -, -, e0, e1⟩ := idx_facts t
    intro a
    match a with
    | ⟨0, _⟩ => show win1_6.index t (0 : Fin 2) * 10000 ≤ (i 0).val ∧ (i 0).val < win1_6.index t (0 : Fin 2) * 10000 + 10000; rw [e0]; omega
    | ⟨1, _⟩ => show win1_6.index t (1 : Fin 2) * 128 ≤ (i 1).val ∧ (i 1).val < win1_6.index t (1 : Fin 2) * 128 + 128; rw [e1]; omega

end Cert.KernelIdeal.KReg1

end
-- ==== Proof.KReg2.lean ====
/-
  What the final launch leaves in its result array, as one function of the arrays it finds.

  The grid has five points; point `t` works on rows `10000·t … 10000·t + 9999`: it fetches those rows of the second
  aggregation's sums, of the factor column and of the first layer's output, the two layer weights, the bias, the final
  weight and the final bias whole, and writes back those rows of the result. On a block the body computes
  `(((rows · factor) · Wl + b) + own · Wr) · Wc + bc`; an entry depends on one row only, so block `t` of the result is
  block `t` of the same expression of the whole arrays, and the five blocks tile the result.
-/
import proofs.«111684_j45689862094941_2_alg».proof.Proof.Gen.KernelIdeal.Frame
import proofs.«111684_j45689862094941_2_alg».proof.Proof.LibSageSum
import Idealize.ShloMosaic.Lib.Pipeline.Value
import Idealize.ShloMosaic.Lib.ValueIdx

set_option maxRecDepth 16384

noncomputable section

open scoped BigOperators

namespace Cert.KernelIdeal.KReg2

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.SageSum Cert.Lib.Dense Cert.Lib.BiasDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the final linear layer of the layer of its loaded blocks. -/
theorem pay_eq (x0 : FVec Ideal S10000x128 .f32) (x1 : FVec Ideal S10000x1 .f32) (x2 : FVec Ideal S10000x128 .f32)
    (wl wr : FVec Ideal S128x128 .f32) (bias : FVec Ideal S128 .f32) (wc : FVec Ideal S128x2 .f32) (bc : FVec Ideal S2 .f32) :
    k2_pay1 (F := Ideal) x0 x1 x2 wl wr bias wc bc = lin (sagePre x0 x1 x2 wl bias wr) wc bc := by
  unfold k2_pay1
  have h2 : shapeCast S10000x128 x2 shapeCasts_S10000x128_S10000x128 = x2 := shapeCast_self x2 _
  dsimp only
  rw [h2]
  exact (congrArg (fun X : FVec Ideal S10000x128 .f32 =>
      addf (FloatOps.matmul dot_S10000x128_S128x2_S10000x2_1_0_0_1_n_n none X wc
          (constant (F := Ideal) S10000x2 .f32 0x00000000#32))
        (broadcastTo S10000x2 (shapeCast S1x2 bc shapeCasts_S2_S1x2) broadcasts_S1x2_S10000x2))
    (unit_sagePre dot_S10000x128_S128x128_S10000x128_1_0_0_1_n_n rfl x0 x1 x2 wl bias wr _ _ _ _ _)).trans
    (unit_lin dot_S10000x128_S128x2_S10000x2_1_0_0_1_n_n rfl _ wc bc shapeCasts_S2_S1x2 broadcasts_S1x2_S10000x2)

/-- The result array as one function of the arrays the launch finds. -/
def G (c : Dev nD) : S50000x2.Idx → EReal :=
  lin (sagePre (V c main_v59) (V c main_v17) (V c main_v48) (V c main_arg10) (V c main_arg11) (V c main_arg12))
    (V c main_arg16) (V c main_arg17)

/-- The printed index maps over the five grid points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

theorem blk_0 (c : Dev nD) (t : Fin cfg2.N) (p' : Fin 10000) (p : Fin 50000) (k : Fin 128)
    (hp : p.val = 10000 * t.val + p'.val) :
    (iblk2 V c 0 t : Vec Ideal S10000x128 .f32) (ix2 p' k) = (V c main_v59 : S50000x128.Idx → EReal) (ix2 p k) := by
  obtain ⟨e00, e01, -⟩ := idx_facts t
  unfold iblk2
  rw [View.read_apply]
  show V c main_v59 _ = V c main_v59 _
  refine congrArg (V c main_v59) ?_
  funext a
  apply Fin.ext
  match a with
  | ⟨0, _⟩ => show win2_0.index t (0 : Fin 2) * 10000 + 1 * p'.val = p.val; rw [e00, hp]; omega
  | ⟨1, _⟩ => show win2_0.index t (1 : Fin 2) * 128 + 1 * k.val = k.val; rw [e01]; omega

theorem blk_1 (c : Dev nD) (t : Fin cfg2.N) (p' : Fin 10000) (p : Fin 50000)
    (hp : p.val = 10000 * t.val + p'.val) :
    (iblk2 V c 1 t : Vec Ideal S10000x1 .f32) (ix2 p' (0 : Fin 1)) = (V c main_v17 : S50000x1.Idx → EReal) (ix2 p (0 : Fin 1)) := by
  obtain ⟨-, -, e10, e11, -⟩ := idx_facts t
  unfold iblk2
  rw [View.read_apply]
  show V c main_v17 _ = V c main_v17 _
  refine congrArg (V c main_v17) ?_
  funext a
  apply Fin.ext
  match a with
  | ⟨0, _⟩ => show win2_1.index t (0 : Fin 2) * 10000 + 1 * p'.val = p.val; rw [e10, hp]; omega
  | ⟨1, _⟩ => show win2_1.index t (1 : Fin 2) * 1 + 1 * 0 = 0; rw [e11]

theorem blk_2 (c : Dev nD) (t : Fin cfg2.N) (p' : Fin 10000) (p : Fin 50000) (k : Fin 128)
    (hp : p.val = 10000 * t.val + p'.val) :
    (iblk2 V c 2 t : Vec Ideal S10000x128 .f32) (ix2 p' k) = (V c main_v48 : S50000x128.Idx → EReal) (ix2 p k) := by
  obtain ⟨-, -, -, -, e20, e21, -⟩ := idx_facts t
  unfold iblk2
  rw [View.read_apply]
  show V c main_v48 _ = V c main_v48 _
  refine congrArg (V c main_v48) ?_
  funext a
  apply Fin.ext
  match a with
  | ⟨0, _⟩ => show win2_2.index t (0 : Fin 2) * 10000 + 1 * p'.val = p.val; rw [e20, hp]; omega
  | ⟨1, _⟩ => show win2_2.index t (1 : Fin 2) * 128 + 1 * k.val = k.val; rw [e21]; omega

theorem blk_3 (c : Dev nD) (t : Fin cfg2.N) : (iblk2 V c 3 t : Vec Ideal S128x128 .f32) = (V c main_arg10 : S128x128.Idx → EReal) := by
  obtain ⟨-, -, -, -, -, -, e30, e31, -⟩ := idx_facts t
  funext y
  unfold iblk2
  rw [View.read_apply]
  show V c main_arg10 _ = V c main_arg10 _
  refine congrArg (V c main_arg10) ?_
  funext a
  apply Fin.ext
  match a with
  | ⟨0, _⟩ => show win2_3.index t (0 : Fin 2) * 128 + 1 * (y 0).val = (y 0).val; rw [e30]; omega
  | ⟨1, _⟩ => show win2_3.index t (1 : Fin 2) * 128 + 1 * (y 1).val = (y 1).val; rw [e31]; omega

theorem blk_4 (c : Dev nD) (t : Fin cfg2.N) : (iblk2 V c 4 t : Vec Ideal S128 .f32) = (V c main_arg11 : S128.Idx → EReal) := by
  obtain ⟨-, -, -, -, -, -, -, -, e40, -⟩ := idx_facts t
  funext y
  unfold iblk2
  rw [View.read_apply]
  show V c main_arg11 _ = V c main_arg11 _
  refine congrArg (V c main_arg11) ?_
  funext a
  apply Fin.ext
  match a with
  | ⟨0, _⟩ => show win2_4.index t (0 : Fin 1) * 128 + 1 * (y 0).val = (y 0).val; rw [e40]; omega

theorem blk_5 (c : Dev nD) (t : Fin cfg2.N) : (iblk2 V c 5 t : Vec Ideal S128x128 .f32) = (V c main_arg12 : S128x128.Idx → EReal) := by
  obtain ⟨-, -, -, -, -, -, -, -, -, e50, e51, -⟩ := idx_facts t
  funext y
  unfold iblk2
  rw [View.read_apply]
  show V c main_arg12 _ = V c main_arg12 _
  refine congrArg (V c main_arg12) ?_
  funext a
  apply Fin.ext
  match a with
  | ⟨0, _⟩ => show win2_5.index t (0 : Fin 2) * 128 + 1 * (y 0).val = (y 0).val; rw [e50]; omega
  | ⟨1, _⟩ => show win2_5.index t (1 : Fin 2) * 128 + 1 * (y 1).val = (y 1).val; rw [e51]; omega

theorem blk_6 (c : Dev nD) (t : Fin cfg2.N) : (iblk2 V c 6 t : Vec Ideal S128x2 .f32) = (V c main_arg16 : S128x2.Idx → EReal) := by
  obtain ⟨-, -, -, -, -, -, -, -, -, -, -, e60, e61, -⟩ := idx_facts t
  funext y
  unfold iblk2
  rw [View.read_apply]
  show V c main_arg16 _ = V c main_arg16 _
  refine congrArg (V c main_arg16) ?_
  funext a
  apply Fin.ext
  match a with
  | ⟨0, _⟩ => show win2_6.index t (0 : Fin 2) * 128 + 1 * (y 0).val = (y 0).val; rw [e60]; omega
  | ⟨1, _⟩ => show win2_6.index t (1 : Fin 2) * 2 + 1 * (y 1).val = (y 1).val; rw [e61]; omega

theorem blk_7 (c : Dev nD) (t : Fin cfg2.N) : (iblk2 V c 7 t : Vec Ideal S2 .f32) = (V c main_arg17 : S2.Idx → EReal) := by
  obtain ⟨-, -, -, -, -, -, -, -, -, -, -, -, -, e70, -⟩ := idx_facts t
  funext y
  unfold iblk2
  rw [View.read_apply]
  show V c main_arg17 _ = V c main_arg17 _
  refine congrArg (V c main_arg17) ?_
  funext a
  apply Fin.ext
  match a with
  | ⟨0, _⟩ => show win2_7.index t (0 : Fin 1) * 2 + 1 * (y 0).val = (y 0).val; rw [e70]; omega

/-- What point `t` writes back is block `t` of `G`. -/
theorem flushed_eq (c : Dev nD) (t : Fin cfg2.N) :
    (dat2 V c).flushed 8 t = ((cfg2.win 8).blk t).view.read (Elt Ideal) (G V c) := by
  show (cfg2.win 8).cut (grid2.coords t) ((dat2 V c).after 8 t) = _
  rw [after2_8]
  unfold out2_8
  rw [View.canon_unit_zero hz2]
  simp only [View.ld_unit_zero (S := S10000x128) hz2, View.ld_unit_zero (S := S10000x1) hz2,
    View.ld_unit_zero (S := S128x128) hz2, View.ld_unit_zero (S := S128) hz1,
    View.ld_unit_zero (S := S128x2) hz2, View.ld_unit_zero (S := S2) hz1]
  rw [pay_eq, blk_3, blk_4, blk_5, blk_6, blk_7]
  obtain ⟨-, -, -, -, -, -, -, -, -, -, -, -, -, -, e80, e81⟩ := idx_facts t
  funext j
  refine lin_sagePre_block (10000 * t.val) _ _ _ _ _ _ _ _ _ _ _
    (fun p' p k hp => blk_0 V c t p' p k hp) (fun p' p hp => blk_1 V c t p' p hp) (fun p' p k hp => blk_2 V c t p' p k hp)
    j _ ?_ ?_
  · show win2_8.index t (0 : Fin 2) * 10000 + 1 * (j 0).val = 10000 * t.val + (j 0).val; rw [e80]; omega
  · show win2_8.index t (1 : Fin 2) * 2 + 1 * (j 1).val = (j 1).val; rw [e81]; omega

theorem mem_blk (t : Fin cfg2.N) (i : S50000x2.Idx) :
    i ∈ ((cfg2.win 8).blk t).view.set ↔ ∀ a : Fin 2, win2_8.index t a * S10000x2.size a ≤ (i a).val ∧ (i a).val < win2_8.index t a * S10000x2.size a + S10000x2.size a := by
  show i ∈ ((View.whole main_v60).slice (win2_8.rect t)).set ↔ _
  rw [View.set_slice_whole, Rect.mem_set_unit]
  exact Iff.rfl

/-- THE RESULT ARRAY after the launch: the five row blocks tile it. -/
theorem final (c : Dev nD) : (dat2 V c).arrAt 8 cfg2.N = G V c :=
  (dat2 V c).arrAt_eq_of_cover 8 (G V c) (fun t _ => flushed_eq V c t) fun i => by
    have hi0 : (i 0).val < 50000 := (i 0).isLt
    have hi1 : (i 1).val < 2 := (i 1).isLt
    have hN : cfg2.N = 5 := N_2
    obtain ⟨t, ht⟩ : ∃ t : Fin cfg2.N, t.val = (i 0).val / 10000 := ⟨⟨(i 0).val / 10000, by rw [hN]; omega⟩, rfl⟩
    refine ⟨t, flush2_8 t, ?_⟩
    rw [mem_blk]
    obtain ⟨-, -, -, -, -, -, -, -, -, -, -, -, -, -, e0, e1⟩ := idx_facts t
    intro a
    match a with
    | ⟨0, _⟩ => show win2_8.index t (0 : Fin 2) * 10000 ≤ (i 0).val ∧ (i 0).val < win2_8.index t (0 : Fin 2) * 10000 + 10000; rw [e0]; omega
    | ⟨1, _⟩ => show win2_8.index t (1 : Fin 2) * 2 ≤ (i 1).val ∧ (i 1).val < win2_8.index t (1 : Fin 2) * 2 + 2; rw [e1]; omega

end Cert.KernelIdeal.KReg2

end
-- ==== Proof.KSpec.lean ====
/-
  The idealized kernel's result as one expression of its argument arrays.

  An edge table has two rows of 1600000 index words: the sources and the destinations. The aggregation of a feature
  matrix along an edge table (`agg`) gathers the source rows (a negative index counted from the end) and adds each
  gathered row onto its destination row of a zero matrix. The factor column of an edge table (`invCol`) is, per node,
  one over the larger of one and the number of edges landing on it, the count taken in integer words and made a float.
  A layer is the positive part of `((agg · factor) · Wl + b) + own · Wr`; the result is the second layer of the
  first node type without a positive part, through the final linear layer.
-/
import proofs.«111684_j45689862094941_2_alg».proof.Proof.Gen.KernelIdeal
import proofs.«111684_j45689862094941_2_alg».proof.Proof.LibSageSum

noncomputable section

namespace Cert.KernelIdeal.KSpec

open Cert.KernelIdeal Cert.KernelIdeal.Facts₀ Idealize.ShloMosaic Idealize.ShloMosaic.TcCoe
open Cert.Lib.SageSum Cert.Lib.Dense Cert.Lib.BiasDot

/-- The source row of an edge table. -/
def srcOf (ei : IVec S2x1600000 32) : IVec S1600000 32 :=
  shapeCast _ (extractStridedSlice S1x1600000 ![0, 0] ei slices_S2x1600000_S1x1600000_0_0) shapeCasts_S1x1600000_S1600000

/-- The destination row of an edge table. -/
def dstOf (ei : IVec S2x1600000 32) : IVec S1600000 32 :=
  shapeCast _ (extractStridedSlice S1x1600000 ![1, 0] ei slices_S2x1600000_S1x1600000_1_0) shapeCasts_S1x1600000_S1600000

/-- The source indices as a column, a negative one counted from the end. -/
def wrapCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)

/-- The rows of `x` at the sources added onto the destinations' rows of a zero matrix. -/
def agg (x : FVec Ideal S50000x128 .f32) (s d : IVec S1600000 32) : FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 d)
    (Host.gather gather_S50000x128_S1600000x1_S1600000x128_1_0_n_n_0_1_1128 x (wrapCol s))

/-- The number of edges landing on each node, counted in integer words. -/
def countI (d : IVec S1600000 32) : IVec S50000 32 :=
  Host.scatter scatter_S50000_S1600000x1_S1600000_n_0_0_1 IntOp.addi
    (broadcastInDim S50000 ![] bcast_S_S50000 (constantI S_ 32 0#32))
    (broadcastInDim S1600000x1 ![0] bcast_S1600000_S1600000x1_0 d)
    (broadcastInDim S1600000 ![] bcast_S_S1600000 (constantI S_ 32 1#32))

/-- Per node, one over the larger of the count and one, as a column. -/
def invCol (d : IVec S1600000 32) : FVec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf (sitofp (F := Ideal) .f32 (countI d))
        (broadcastInDim S50000 ![] bcast_S_S50000 (constant (F := Ideal) S_ .f32 0x3F800000#32))))

/-- One layer with its positive part, from the aggregated sums. -/
def layer (s : FVec Ideal S50000x128 .f32) (v : FVec Ideal S50000x1 .f32) (x : FVec Ideal S50000x128 .f32)
    (Wl : FVec Ideal S128x128 .f32) (b : FVec Ideal S128 .f32) (Wr : FVec Ideal S128x128 .f32) :
    FVec Ideal S50000x128 .f32 :=
  relu (sagePre s v x Wl b Wr)

/-- The result: both layer-one outputs, the second aggregation along the first edge table, the second layer of the
    first node type without a positive part, the final linear layer. -/
def out (x0 x1 : FVec Ideal S50000x128 .f32) (e2 e3 : IVec S2x1600000 32)
    (w4 : FVec Ideal S128x128 .f32) (b5 : FVec Ideal S128 .f32) (w6 : FVec Ideal S128x128 .f32)
    (w7 : FVec Ideal S128x128 .f32) (b8 : FVec Ideal S128 .f32) (w9 : FVec Ideal S128x128 .f32)
    (w10 : FVec Ideal S128x128 .f32) (b11 : FVec Ideal S128 .f32) (w12 : FVec Ideal S128x128 .f32)
    (w16 : FVec Ideal S128x2 .f32) (b17 : FVec Ideal S2 .f32) : FVec Ideal S50000x2 .f32 :=
  lin (sagePre
      (agg (layer (agg x1 (srcOf e3) (dstOf e3)) (invCol (dstOf e3)) x0 w7 b8 w9) (srcOf e2) (dstOf e2))
      (invCol (dstOf e2))
      (layer (agg x0 (srcOf e2) (dstOf e2)) (invCol (dstOf e2)) x1 w4 b5 w6)
      w10 b11 w12) w16 b17

end Cert.KernelIdeal.KSpec

end
-- ==== Proof.KHost.lean ====
/-
  The buffer contents the idealized kernel's program holds at each launch, and its result, as expressions of the
  argument arrays.

  Before the first launch the host operations compute, from the two edge tables, the source and destination rows, the
  two factor columns and the two layer-one aggregations. The first two launches each leave one layer-one output. The
  host operations between aggregate the second output along the first edge table. The last launch reads that
  aggregation, the first factor column and the first layer-one output, and leaves the result. Each launch's arrays are
  read back through the boundaries to those expressions: a buffer no operation and no launch writes keeps its contents.
-/
import proofs.«111684_j45689862094941_2_alg».proof.Proof.Gen.KernelIdeal.Frame
import proofs.«111684_j45689862094941_2_alg».proof.Proof.KReg0
import proofs.«111684_j45689862094941_2_alg».proof.Proof.KReg1
import proofs.«111684_j45689862094941_2_alg».proof.Proof.KReg2
import proofs.«111684_j45689862094941_2_alg».proof.Proof.KSpec
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## Before the first launch -/

theorem w1_arg0 : W1 m ρ c (Proc.devRef .tc main_arg0) = (m ((c : Thread nD τ).loc main_arg0)) := by
  show StableHlo.after hostOps0 (W0 m ρ c) (Proc.devRef .tc main_arg0) = _
  after_results_simp <;> rfl

theorem w1_arg1 : W1 m ρ c (Proc.devRef .tc main_arg1) = (m ((c : Thread nD τ).loc main_arg1)) := by
  show StableHlo.after hostOps0 (W0 m ρ c) (Proc.devRef .tc main_arg1) = _
  after_results_simp <;> rfl

theorem w1_arg4 : W1 m ρ c (Proc.devRef .tc main_arg4) = (m ((c : Thread nD τ).loc main_arg4)) := by
  show StableHlo.after hostOps0 (W0 m ρ c) (Proc.devRef .tc main_arg4) = _
  after_results_simp <;> rfl

theorem w1_arg5 : W1 m ρ c (Proc.devRef .tc main_arg5) = (m ((c : Thread nD τ).loc main_arg5)) := by
  show StableHlo.after hostOps0 (W0 m ρ c) (Proc.devRef .tc main_arg5) = _
  after_results_simp <;> rfl

theorem w1_arg6 : W1 m ρ c (Proc.devRef .tc main_arg6) = (m ((c : Thread nD τ).loc main_arg6)) := by
  show StableHlo.after hostOps0 (W0 m ρ c) (Proc.devRef .tc main_arg6) = _
  after_results_simp <;> rfl

theorem w1_arg7 : W1 m ρ c (Proc.devRef .tc main_arg7) = (m ((c : Thread nD τ).loc main_arg7)) := by
  show StableHlo.after hostOps0 (W0 m ρ c) (Proc.devRef .tc main_arg7) = _
  after_results_simp <;> rfl

theorem w1_arg8 : W1 m ρ c (Proc.devRef .tc main_arg8) = (m ((c : Thread nD τ).loc main_arg8)) := by
  show StableHlo.after hostOps0 (W0 m ρ c) (Proc.devRef .tc main_arg8) = _
  after_results_simp <;> rfl

theorem w1_arg9 : W1 m ρ c (Proc.devRef .tc main_arg9) = (m ((c : Thread nD τ).loc main_arg9)) := by
  show StableHlo.after hostOps0 (W0 m ρ c) (Proc.devRef .tc main_arg9) = _
  after_results_simp <;> rfl

theorem w1_arg10 : W1 m ρ c (Proc.devRef .tc main_arg10) = (m ((c : Thread nD τ).loc main_arg10)) := by
  show StableHlo.after hostOps0 (W0 m ρ c) (Proc.devRef .tc main_arg10) = _
  after_results_simp <;> rfl

theorem w1_arg11 : W1 m ρ c (Proc.devRef .tc main_arg11) = (m ((c : Thread nD τ).loc main_arg11)) := by
  show StableHlo.after hostOps0 (W0 m ρ c) (Proc.devRef .tc main_arg11) = _
  after_results_simp <;> rfl

theorem w1_arg12 : W1 m ρ c (Proc.devRef .tc main_arg12) = (m ((c : Thread nD τ).loc main_arg12)) := by
  show StableHlo.after hostOps0 (W0 m ρ c) (Proc.devRef .tc main_arg12) = _
  after_results_simp <;> rfl

theorem w1_arg16 : W1 m ρ c (Proc.devRef .tc main_arg16) = (m ((c : Thread nD τ).loc main_arg16)) := by
  show StableHlo.after hostOps0 (W0 m ρ c) (Proc.devRef .tc main_arg16) = _
  after_results_simp <;> rfl

theorem w1_arg17 : W1 m ρ c (Proc.devRef .tc main_arg17) = (m ((c : Thread nD τ).loc main_arg17)) := by
  show StableHlo.after hostOps0 (W0 m ρ c) (Proc.devRef .tc main_arg17) = _
  after_results_simp <;> rfl

theorem w1_v1 : W1 m ρ c (Proc.devRef .tc main_v1) = (KSpec.srcOf (m ((c : Thread nD τ).loc main_arg2))) := by
  show StableHlo.after hostOps0 (W0 m ρ c) (Proc.devRef .tc main_v1) = _
  after_results_simp <;> rfl

theorem w1_v3 : W1 m ρ c (Proc.devRef .tc main_v3) = (KSpec.dstOf (m ((c : Thread nD τ).loc main_arg2))) := by
  show StableHlo.after hostOps0 (W0 m ρ c) (Proc.devRef .tc main_v3) = _
  after_results_simp <;> rfl

theorem w1_v37 : W1 m ρ c (Proc.devRef .tc main_v37) = KSpec.agg (m ((c : Thread nD τ).loc main_arg0)) (KSpec.srcOf (m ((c : Thread nD τ).loc main_arg2))) (KSpec.dstOf (m ((c : Thread nD τ).loc main_arg2))) := by
  show StableHlo.after hostOps0 (W0 m ρ c) (Proc.devRef .tc main_v37) = _
  after_results_simp <;> rfl

theorem w1_v17 : W1 m ρ c (Proc.devRef .tc main_v17) = KSpec.invCol (KSpec.dstOf (m ((c : Thread nD τ).loc main_arg2))) := by
  show StableHlo.after hostOps0 (W0 m ρ c) (Proc.devRef .tc main_v17) = _
  after_results_simp <;> rfl

theorem w1_v47 : W1 m ρ c (Proc.devRef .tc main_v47) = KSpec.agg (m ((c : Thread nD τ).loc main_arg1)) (KSpec.srcOf (m ((c : Thread nD τ).loc main_arg3))) (KSpec.dstOf (m ((c : Thread nD τ).loc main_arg3))) := by
  show StableHlo.after hostOps0 (W0 m ρ c) (Proc.devRef .tc main_v47) = _
  after_results_simp <;> rfl

theorem w1_v27 : W1 m ρ c (Proc.devRef .tc main_v27) = KSpec.invCol (KSpec.dstOf (m ((c : Thread nD τ).loc main_arg3))) := by
  show StableHlo.after hostOps0 (W0 m ρ c) (Proc.devRef .tc main_v27) = _
  after_results_simp <;> rfl

/-! ## The first launch's result -/

theorem w2_v48 : W2 m ρ c (Proc.devRef .tc main_v48) = (KSpec.layer (KSpec.agg (m ((c : Thread nD τ).loc main_arg0)) (KSpec.srcOf (m ((c : Thread nD τ).loc main_arg2))) (KSpec.dstOf (m ((c : Thread nD τ).loc main_arg2)))) (KSpec.invCol (KSpec.dstOf (m ((c : Thread nD τ).loc main_arg2)))) (m ((c : Thread nD τ).loc main_arg1)) (m ((c : Thread nD τ).loc main_arg4)) (m ((c : Thread nD τ).loc main_arg5)) (m ((c : Thread nD τ).loc main_arg6))) := by
  refine (W2_arr m ρ c 6).trans ((KReg0.final (V1 m ρ) c).trans ?_)
  unfold KReg0.G KSpec.layer
  rw [show V1 m ρ c main_v37 = _ from w1_v37 m ρ c, show V1 m ρ c main_v17 = _ from w1_v17 m ρ c,
    show V1 m ρ c main_arg1 = _ from w1_arg1 m ρ c, show V1 m ρ c main_arg4 = _ from w1_arg4 m ρ c,
    show V1 m ρ c main_arg5 = _ from w1_arg5 m ρ c, show V1 m ρ c main_arg6 = _ from w1_arg6 m ρ c]

/-! ## The second launch's result -/

theorem w3_v49 : W3 m ρ c (Proc.devRef .tc main_v49) = (KSpec.layer (KSpec.agg (m ((c : Thread nD τ).loc main_arg1)) (KSpec.srcOf (m ((c : Thread nD τ).loc main_arg3))) (KSpec.dstOf (m ((c : Thread nD τ).loc main_arg3)))) (KSpec.invCol (KSpec.dstOf (m ((c : Thread nD τ).loc main_arg3)))) (m ((c : Thread nD τ).loc main_arg0)) (m ((c : Thread nD τ).loc main_arg7)) (m ((c : Thread nD τ).loc main_arg8)) (m ((c : Thread nD τ).loc main_arg9))) := by
  refine (W3_arr m ρ c 6).trans ((KReg1.final (V2 m ρ) c).trans ?_)
  unfold KReg1.G KSpec.layer
  rw [show V2 m ρ c main_v47 = _ from (W2_of_ne m ρ c main_v47 (by decide)).trans (w1_v47 m ρ c),
    show V2 m ρ c main_v27 = _ from (W2_of_ne m ρ c main_v27 (by decide)).trans (w1_v27 m ρ c),
    show V2 m ρ c main_arg0 = _ from (W2_of_ne m ρ c main_arg0 (by decide)).trans (w1_arg0 m ρ c),
    show V2 m ρ c main_arg7 = _ from (W2_of_ne m ρ c main_arg7 (by decide)).trans (w1_arg7 m ρ c),
    show V2 m ρ c main_arg8 = _ from (W2_of_ne m ρ c main_arg8 (by decide)).trans (w1_arg8 m ρ c),
    show V2 m ρ c main_arg9 = _ from (W2_of_ne m ρ c main_arg9 (by decide)).trans (w1_arg9 m ρ c)]

/-! ## Before the last launch -/

theorem w3_v1 : W3 m ρ c (Proc.devRef .tc main_v1) = (KSpec.srcOf (m ((c : Thread nD τ).loc main_arg2))) :=
  (W3_of_ne m ρ c main_v1 (by decide)).trans ((W2_of_ne m ρ c main_v1 (by decide)).trans (w1_v1 m ρ c))

theorem w3_v3 : W3 m ρ c (Proc.devRef .tc main_v3) = (KSpec.dstOf (m ((c : Thread nD τ).loc main_arg2))) :=
  (W3_of_ne m ρ c main_v3 (by decide)).trans ((W2_of_ne m ρ c main_v3 (by decide)).trans (w1_v3 m ρ c))

theorem w3_v17 : W3 m ρ c (Proc.devRef .tc main_v17) = KSpec.invCol (KSpec.dstOf (m ((c : Thread nD τ).loc main_arg2))) :=
  (W3_of_ne m ρ c main_v17 (by decide)).trans
    ((W2_arr m ρ c 1).trans (((dat0 (V1 m ρ) c).arrAt_in 1 rfl _).trans ((A_eq0 (V1 m ρ) c 1).trans (w1_v17 m ρ c))))

theorem w3_v48 : W3 m ρ c (Proc.devRef .tc main_v48) = (KSpec.layer (KSpec.agg (m ((c : Thread nD τ).loc main_arg0)) (KSpec.srcOf (m ((c : Thread nD τ).loc main_arg2))) (KSpec.dstOf (m ((c : Thread nD τ).loc main_arg2)))) (KSpec.invCol (KSpec.dstOf (m ((c : Thread nD τ).loc main_arg2)))) (m ((c : Thread nD τ).loc main_arg1)) (m ((c : Thread nD τ).loc main_arg4)) (m ((c : Thread nD τ).loc main_arg5)) (m ((c : Thread nD τ).loc main_arg6))) :=
  (W3_of_ne m ρ c main_v48 (by decide)).trans (w2_v48 m ρ c)

theorem w3_arg10 : W3 m ρ c (Proc.devRef .tc main_arg10) = (m ((c : Thread nD τ).loc main_arg10)) :=
  (W3_of_ne m ρ c main_arg10 (by decide)).trans ((W2_of_ne m ρ c main_arg10 (by decide)).trans (w1_arg10 m ρ c))

theorem w3_arg11 : W3 m ρ c (Proc.devRef .tc main_arg11) = (m ((c : Thread nD τ).loc main_arg11)) :=
  (W3_of_ne m ρ c main_arg11 (by decide)).trans ((W2_of_ne m ρ c main_arg11 (by decide)).trans (w1_arg11 m ρ c))

theorem w3_arg12 : W3 m ρ c (Proc.devRef .tc main_arg12) = (m ((c : Thread nD τ).loc main_arg12)) :=
  (W3_of_ne m ρ c main_arg12 (by decide)).trans ((W2_of_ne m ρ c main_arg12 (by decide)).trans (w1_arg12 m ρ c))

theorem w3_arg16 : W3 m ρ c (Proc.devRef .tc main_arg16) = (m ((c : Thread nD τ).loc main_arg16)) :=
  (W3_of_ne m ρ c main_arg16 (by decide)).trans ((W2_of_ne m ρ c main_arg16 (by decide)).trans (w1_arg16 m ρ c))

theorem w3_arg17 : W3 m ρ c (Proc.devRef .tc main_arg17) = (m ((c : Thread nD τ).loc main_arg17)) :=
  (W3_of_ne m ρ c main_arg17 (by decide)).trans ((W2_of_ne m ρ c main_arg17 (by decide)).trans (w1_arg17 m ρ c))

theorem w4_v59 : W4 m ρ c (Proc.devRef .tc main_v59) = KSpec.agg (KSpec.layer (KSpec.agg (m ((c : Thread nD τ).loc main_arg1)) (KSpec.srcOf (m ((c : Thread nD τ).loc main_arg3))) (KSpec.dstOf (m ((c : Thread nD τ).loc main_arg3)))) (KSpec.invCol (KSpec.dstOf (m ((c : Thread nD τ).loc main_arg3)))) (m ((c : Thread nD τ).loc main_arg0)) (m ((c : Thread nD τ).loc main_arg7)) (m ((c : Thread nD τ).loc main_arg8)) (m ((c : Thread nD τ).loc main_arg9))) (KSpec.srcOf (m ((c : Thread nD τ).loc main_arg2))) (KSpec.dstOf (m ((c : Thread nD τ).loc main_arg2))) := by
  have h : W4 m ρ c (Proc.devRef .tc main_v59)
      = KSpec.agg (W3 m ρ c (Proc.devRef .tc main_v49)) (W3 m ρ c (Proc.devRef .tc main_v1)) (W3 m ρ c (Proc.devRef .tc main_v3)) := by
    show StableHlo.after hostOps2 (W3 m ρ c) (Proc.devRef .tc main_v59) = _
    after_results_simp <;> rfl
  rw [h, w3_v49, w3_v1, w3_v3]

theorem w4_v17 : W4 m ρ c (Proc.devRef .tc main_v17) = KSpec.invCol (KSpec.dstOf (m ((c : Thread nD τ).loc main_arg2))) := by
  have h : W4 m ρ c (Proc.devRef .tc main_v17) = W3 m ρ c (Proc.devRef .tc main_v17) := by
    show StableHlo.after hostOps2 (W3 m ρ c) (Proc.devRef .tc main_v17) = _
    after_results_simp <;> rfl
  rw [h, w3_v17]

theorem w4_v48 : W4 m ρ c (Proc.devRef .tc main_v48) = (KSpec.layer (KSpec.agg (m ((c : Thread nD τ).loc main_arg0)) (KSpec.srcOf (m ((c : Thread nD τ).loc main_arg2))) (KSpec.dstOf (m ((c : Thread nD τ).loc main_arg2)))) (KSpec.invCol (KSpec.dstOf (m ((c : Thread nD τ).loc main_arg2)))) (m ((c : Thread nD τ).loc main_arg1)) (m ((c : Thread nD τ).loc main_arg4)) (m ((c : Thread nD τ).loc main_arg5)) (m ((c : Thread nD τ).loc main_arg6))) := by
  have h : W4 m ρ c (Proc.devRef .tc main_v48) = W3 m ρ c (Proc.devRef .tc main_v48) := by
    show StableHlo.after hostOps2 (W3 m ρ c) (Proc.devRef .tc main_v48) = _
    after_results_simp <;> rfl
  rw [h, w3_v48]

theorem w4_arg10 : W4 m ρ c (Proc.devRef .tc main_arg10) = (m ((c : Thread nD τ).loc main_arg10)) := by
  have h : W4 m ρ c (Proc.devRef .tc main_arg10) = W3 m ρ c (Proc.devRef .tc main_arg10) := by
    show StableHlo.after hostOps2 (W3 m ρ c) (Proc.devRef .tc main_arg10) = _
    after_results_simp <;> rfl
  rw [h, w3_arg10]

theorem w4_arg11 : W4 m ρ c (Proc.devRef .tc main_arg11) = (m ((c : Thread nD τ).loc main_arg11)) := by
  have h : W4 m ρ c (Proc.devRef .tc main_arg11) = W3 m ρ c (Proc.devRef .tc main_arg11) := by
    show StableHlo.after hostOps2 (W3 m ρ c) (Proc.devRef .tc main_arg11) = _
    after_results_simp <;> rfl
  rw [h, w3_arg11]

theorem w4_arg12 : W4 m ρ c (Proc.devRef .tc main_arg12) = (m ((c : Thread nD τ).loc main_arg12)) := by
  have h : W4 m ρ c (Proc.devRef .tc main_arg12) = W3 m ρ c (Proc.devRef .tc main_arg12) := by
    show StableHlo.after hostOps2 (W3 m ρ c) (Proc.devRef .tc main_arg12) = _
    after_results_simp <;> rfl
  rw [h, w3_arg12]

theorem w4_arg16 : W4 m ρ c (Proc.devRef .tc main_arg16) = (m ((c : Thread nD τ).loc main_arg16)) := by
  have h : W4 m ρ c (Proc.devRef .tc main_arg16) = W3 m ρ c (Proc.devRef .tc main_arg16) := by
    show StableHlo.after hostOps2 (W3 m ρ c) (Proc.devRef .tc main_arg16) = _
    after_results_simp <;> rfl
  rw [h, w3_arg16]

theorem w4_arg17 : W4 m ρ c (Proc.devRef .tc main_arg17) = (m ((c : Thread nD τ).loc main_arg17)) := by
  have h : W4 m ρ c (Proc.devRef .tc main_arg17) = W3 m ρ c (Proc.devRef .tc main_arg17) := by
    show StableHlo.after hostOps2 (W3 m ρ c) (Proc.devRef .tc main_arg17) = _
    after_results_simp <;> rfl
  rw [h, w3_arg17]

/-! ## The result -/

/-- The result buffer's contents at the return. -/
theorem result : W5 m ρ c (Proc.devRef .tc main_v60)
    = KSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (m ((c : Thread nD τ).loc main_arg17)) := by
  refine (W5_arr m ρ c 8).trans ((KReg2.final (V4 m ρ) c).trans ?_)
  unfold KReg2.G KSpec.out
  rw [show V4 m ρ c main_v59 = _ from w4_v59 m ρ c, show V4 m ρ c main_v17 = _ from w4_v17 m ρ c,
    show V4 m ρ c main_v48 = _ from w4_v48 m ρ c, show V4 m ρ c main_arg10 = _ from w4_arg10 m ρ c,
    show V4 m ρ c main_arg11 = _ from w4_arg11 m ρ c, show V4 m ρ c main_arg12 = _ from w4_arg12 m ρ c,
    show V4 m ρ c main_arg16 = _ from w4_arg16 m ρ c, show V4 m ρ c main_arg17 = _ from w4_arg17 m ρ c]

end Cert.KernelIdeal.KHost

end
-- ==== Proof.RSpec.lean ====
/-
  The idealized reference's result as one expression of its argument arrays, and that expression read as layers.

  The reference aggregates along an edge table as the kernel's program does (gather the source rows, a negative index
  counted from the end; add each onto its destination row of a zero matrix), counts the edges landing on each node by
  adding the float one per edge into zeros, DIVIDES the aggregate by the larger of that count and one (made a column and
  spread along the features), and applies `· Wl + b` and `+ own · Wr`; the positive part is a maximum with a broadcast zero.
  Whenever dividing by a node's divisor is multiplying by a factor column's entry (`hv`), a reference layer is the
  layer of the aggregate, that factor column and the own features (`rsage_eq`), and the whole result is two such layers
  under a third, through the final linear layer (`out_eq`).
-/
import proofs.«111684_j45689862094941_2_alg».proof.Proof.Gen.ReferenceIdeal.Run
import proofs.«111684_j45689862094941_2_alg».proof.Proof.LibSageSum

noncomputable section

namespace Cert.ReferenceIdeal.RSpec

open Cert.ReferenceIdeal Cert.ReferenceIdeal.Facts₀ Idealize.ShloMosaic Idealize.ShloMosaic.TcCoe Idealize.ShloMosaic.ValueIdx
open Cert.Lib.SageSum Cert.Lib.Dense Cert.Lib.BiasDot

/-- The source row of an edge table. -/
def srcOf (ei : IVec S2x1600000 32) : IVec S1600000 32 :=
  shapeCast _ (extractStridedSlice S1x1600000 ![0, 0] ei slices_S2x1600000_S1x1600000_0_0) shapeCasts_S1x1600000_S1600000

/-- The destination row of an edge table. -/
def dstOf (ei : IVec S2x1600000 32) : IVec S1600000 32 :=
  shapeCast _ (extractStridedSlice S1x1600000 ![1, 0] ei slices_S2x1600000_S1x1600000_1_0) shapeCasts_S1x1600000_S1600000

/-- The source indices as a column, a negative one counted from the end. -/
def wrapCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)

/-- The rows of `x` at the sources added onto the destinations' rows of a zero matrix. -/
def agg (x : FVec Ideal S50000x128 .f32) (s d : IVec S1600000 32) : FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 d)
    (Host.gather gather_S50000x128_S1600000x1_S1600000x128_1_0_n_n_0_1_1128 x (wrapCol s))

/-- The number of edges landing on each node, counted by adding the float one per edge into zeros. -/
def countF (d : IVec S1600000 32) : FVec Ideal S50000 .f32 :=
  Host.scatterAdd (F := Ideal) scatter_S50000_S1600000x1_S1600000_n_0_0_1
    (broadcastInDim S50000 ![] bcast_S_S50000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- Per node, the larger of the count and one: the mean's divisor. -/
def maxCount (d : IVec S1600000 32) : FVec Ideal S50000 .f32 :=
  maximumf (countF d) (broadcastInDim S50000 ![] bcast_S_S50000 (constant (F := Ideal) S_ .f32 0x3F800000#32))

/-- One reference layer before its positive part. -/
def rsage (xsrc xdst : FVec Ideal S50000x128 .f32) (ei : IVec S2x1600000 32)
    (Wl : FVec Ideal S128x128 .f32) (b : FVec Ideal S128 .f32) (Wr : FVec Ideal S128x128 .f32) :
    FVec Ideal S50000x128 .f32 :=
  addf (addf (Host.dotGeneral (F := Ideal) dot_S50000x128_S128x128_S50000x128_1_0_0_1_n_n none
        (Host.divf (F := Ideal) (agg xsrc (srcOf ei) (dstOf ei))
          (broadcastInDim S50000x128 ![0, 1] bcast_S50000x1_S50000x128_0_1
            (broadcastInDim S50000x1 ![0] bcast_S50000_S50000x1_0 (maxCount (dstOf ei))))) Wl)
      (broadcastInDim S50000x128 ![0, 1] bcast_S1x128_S50000x128_0_1 (broadcastInDim S1x128 ![1] bcast_S128_S1x128_1 b)))
    (Host.dotGeneral (F := Ideal) dot_S50000x128_S128x128_S50000x128_1_0_0_1_n_n none xdst Wr)

/-- The reference's positive part. -/
def reluH (h : FVec Ideal S50000x128 .f32) : FVec Ideal S50000x128 .f32 :=
  maximumf h (broadcastInDim S50000x128 ![] bcast_S_S50000x128 (constant (F := Ideal) S_ .f32 0x00000000#32))

/-- The reference's result. -/
def out (x0 x1 : FVec Ideal S50000x128 .f32) (e2 e3 : IVec S2x1600000 32)
    (w4 : FVec Ideal S128x128 .f32) (b5 : FVec Ideal S128 .f32) (w6 : FVec Ideal S128x128 .f32)
    (w7 : FVec Ideal S128x128 .f32) (b8 : FVec Ideal S128 .f32) (w9 : FVec Ideal S128x128 .f32)
    (w10 : FVec Ideal S128x128 .f32) (b11 : FVec Ideal S128 .f32) (w12 : FVec Ideal S128x128 .f32)
    (w16 : FVec Ideal S128x2 .f32) (b17 : FVec Ideal S2 .f32) : FVec Ideal S50000x2 .f32 :=
  addf (Host.dotGeneral (F := Ideal) dot_S50000x128_S128x2_S50000x2_1_0_0_1_n_n none
      (rsage (reluH (rsage x1 x0 e3 w7 b8 w9)) (reluH (rsage x0 x1 e2 w4 b5 w6)) e2 w10 b11 w12) w16)
    (broadcastInDim S50000x2 ![0, 1] bcast_S1x2_S50000x2_0_1 (broadcastInDim S1x2 ![1] bcast_S2_S1x2_1 b17))

/-- The run's composed term is that expression of the argument arrays. -/
theorem res_eq (m : (ℓ : Loc nD τ sig) → Buf (Elt Ideal) ℓ) (c : Dev nD) :
    Cert.ReferenceIdeal.Value.res_main_v92 (F := Ideal) m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg16))
          (m ((c.tc : Thread nD τ).loc main_arg17)) := by
  unfold Cert.ReferenceIdeal.Value.res_main_v92 out rsage reluH maxCount countF agg wrapCol srcOf dstOf
  rfl

/-- A reference layer is the layer of its aggregate, a factor column and the own features, when dividing by a node's
    divisor is multiplying by the column's entry. -/
theorem rsage_eq (xsrc xdst : FVec Ideal S50000x128 .f32) (ei : IVec S2x1600000 32)
    (Wl : FVec Ideal S128x128 .f32) (b : FVec Ideal S128 .f32) (Wr : FVec Ideal S128x128 .f32)
    (v : S50000x1.Idx → EReal)
    (hv : ∀ (p : Fin 50000) (a : EReal), Ideal.div a (maxCount (dstOf ei) (ix1 p)) = a * v (ix2 p (0 : Fin 1))) :
    rsage xsrc xdst ei Wl b Wr = sagePre (agg xsrc (srcOf ei) (dstOf ei)) v xdst Wl b Wr :=
  host_sagePre dot_S50000x128_S128x128_S50000x128_1_0_0_1_n_n rfl (agg xsrc (srcOf ei) (dstOf ei)) (maxCount (dstOf ei))
    xdst Wl b Wr bcast_S50000_S50000x1_0 bcast_S50000x1_S50000x128_0_1 bcast_S128_S1x128_1 bcast_S1x128_S50000x128_0_1 v hv

/-- The whole result as layers. -/
theorem out_eq (x0 x1 : FVec Ideal S50000x128 .f32) (e2 e3 : IVec S2x1600000 32)
    (w4 : FVec Ideal S128x128 .f32) (b5 : FVec Ideal S128 .f32) (w6 : FVec Ideal S128x128 .f32)
    (w7 : FVec Ideal S128x128 .f32) (b8 : FVec Ideal S128 .f32) (w9 : FVec Ideal S128x128 .f32)
    (w10 : FVec Ideal S128x128 .f32) (b11 : FVec Ideal S128 .f32) (w12 : FVec Ideal S128x128 .f32)
    (w16 : FVec Ideal S128x2 .f32) (b17 : FVec Ideal S2 .f32)
    (v2 v3 : S50000x1.Idx → EReal)
    (hv2 : ∀ (p : Fin 50000) (a : EReal), Ideal.div a (maxCount (dstOf e2) (ix1 p)) = a * v2 (ix2 p (0 : Fin 1)))
    (hv3 : ∀ (p : Fin 50000) (a : EReal), Ideal.div a (maxCount (dstOf e3) (ix1 p)) = a * v3 (ix2 p (0 : Fin 1))) :
    out x0 x1 e2 e3 w4 b5 w6 w7 b8 w9 w10 b11 w12 w16 b17
      = lin (sagePre
          (agg (relu (sagePre (agg x1 (srcOf e3) (dstOf e3)) v3 x0 w7 b8 w9)) (srcOf e2) (dstOf e2)) v2
          (relu (sagePre (agg x0 (srcOf e2) (dstOf e2)) v2 x1 w4 b5 w6)) w10 b11 w12) w16 b17 := by
  unfold out reluH
  rw [rsage_eq x1 x0 e3 w7 b8 w9 v3 hv3, rsage_eq x0 x1 e2 w4 b5 w6 v2 hv2, host_relu, host_relu,
    rsage_eq _ _ e2 w10 b11 w12 v2 hv2]
  exact host_lin dot_S50000x128_S128x2_S50000x2_1_0_0_1_n_n rfl _ w16 b17 bcast_S2_S1x2_1 bcast_S1x2_S50000x2_0_1

end Cert.ReferenceIdeal.RSpec

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibScatter1.lean ====
/-
  A scatter-add into a column, read at an index.

  For a column `x` of `N` entries, a column `idx` of `M` integer words (shape `[M, 1]`) and `M` updates, the
  scatter-add puts update `e` onto the operand entry `idx[e]` read as a signed integer and not clamped (an update
  whose entry is outside `[0, N − 1]` is dropped): entry `n` of the result is
  `x n + ∑ e ∈ landsOn idx N n, upd e`, the sum over the updates whose index is `n` — the same set of updates a
  scatter-add of whole rows sends to row `n`.
-/
import Idealize.ShloMosaic.Lib.ValueIdx
import Idealize.ShloMosaic.PureOps.Ideal.Laws
import Idealize.ShloMosaic.Lib.Pipeline.Value
import proofs.«111684_j45689862094941_2_alg».proof.Proof.LibRowScatter

noncomputable section

open scoped BigOperators

namespace Cert.Lib.Scatter1

open Idealize.ShloMosaic Idealize.ShloMosaic.ValueIdx Cert.Lib.RowScatter

/-- The indices of a column of `M` entries are the numbers below `M`. -/
def idx1Equiv (M : Nat) : Fin M ≃ (⟨1, ![M]⟩ : Shape).Idx where
  toFun := ix1
  invFun j := j 0
  left_inv _ := rfl
  right_inv j := (eq_ix1 j).symm

/-- A sum over the indices of a column is the sum over its entries' numbers. -/
theorem sum_idx1 {A : Type*} [AddCommMonoid A] {M : Nat} (f : (⟨1, ![M]⟩ : Shape).Idx → A) :
    ∑ i, f i = ∑ e : Fin M, f (ix1 e) :=
  (Equiv.sum_comp (idx1Equiv M) f).symm

/-- The dimension numbers of a scatter of single entries into a column: operand `[N]`, scatter indices `[M, 1]`,
    updates `[M]`; no window axis, the operand's axis 0 inserted and named by the scatter index, the index vector along
    axis 1 of the scatter indices. Their conditions `wf` are decided on literal shapes. -/
abbrev scatter1Dims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The start of update `e` is the index word `idx (e, 0)` read as a signed integer. -/
theorem scatter1_start {N M w : Nat} (wf : ScatterDims.WF ⟨1, ![N]⟩ ⟨2, ![M, 1]⟩ ⟨1, ![M]⟩ [] [0] [0] 1)
    (idx : IVec ⟨2, ![M, 1]⟩ w) (e : Fin M) :
    (scatter1Dims N M wf).start (ix1 e) idx 0 = (idx (ix2 e (0 : Fin 1))).toInt := by
  unfold ScatterDims.start
  rw [dif_pos (show (0 : Fin 1) ∈ (scatter1Dims N M wf).scatterDimsToOperandDims from List.mem_singleton.mpr rfl)]
  have hsi : (scatter1Dims N M wf).siIdx (ix1 e)
      ⟨List.idxOf (0 : Fin 1) (scatter1Dims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the one axis, an inserted one, the window coordinate is `0`. -/
theorem scatter1_window {N M : Nat} (wf : ScatterDims.WF ⟨1, ![N]⟩ ⟨2, ![M, 1]⟩ ⟨1, ![M]⟩ [] [0] [0] 1) (e : Fin M) :
    (scatter1Dims N M wf).window (ix1 e) 0 = 0 := by
  unfold ScatterDims.window
  rw [dif_neg (fun h => (mem_kept _ _).mp h (List.mem_singleton.mpr rfl))]

/-- Update `e` lands at operand entry `n` exactly when its signed index word is `n`. -/
theorem resultIdx?_one {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (scatter1Dims N M wf).resultIdx? (ix1 e) idx = some (ix1 n)
      ↔ (idx (ix2 e (0 : Fin 1))).toInt = (n.val : Int) := by
  rw [resultIdx?_eq_some_iff]
  constructor
  · intro h
    have h0 := h 0
    rw [scatter1_start, scatter1_window] at h0
    change (idx (ix2 e (0 : Fin 1))).toInt + ((0 : Nat) : Int) = (n.val : Int) at h0
    omega
  · intro h a
    obtain rfl : a = 0 := Subsingleton.elim _ _
    rw [scatter1_start, scatter1_window]
    show _ + ((0 : Nat) : Int) = (n.val : Int)
    omega

/-- THE SCATTER-ADD INTO A COLUMN READ AT `n`: the operand's entry plus the sum, over the updates `e` whose signed
    index word is `n`, of update `e`. -/
theorem scatterAdd1_apply {N M w : Nat}
    (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (n : Fin N) :
    Host.scatterAdd (F := Ideal) (scatter1Dims N M wf) x idx upd (ix1 n)
      = x (ix1 n) + ∑ e ∈ landsOn idx N n, upd (ix1 e) := by
  unfold Host.scatterAdd
  rw [Ideal.hostScatterAdd_def]
  unfold Ideal.hostScatterAdd
  congr 1
  rw [Finset.sum_filter, sum_idx1]
  unfold landsOn
  rw [Finset.sum_filter]
  refine Finset.sum_congr rfl (fun e _ => ?_)
  simp only [resultIdx?_one]

end Cert.Lib.Scatter1

end
-- ==== Proof.LibIntScatter.lean ====
/-
  A scatter-add of ones into a column of zeros counts.

  The host's scatter visits the updates in row-major order; with word addition as its body, update e adds its word to the
  operand's entry at the index it lands on, and is dropped when it lands outside.  For a column of K entries, a column of
  M index words (shape [M, 1]) and M updates, update e lands on entry c exactly when its index word read as a signed
  integer is c.  Starting from zeros and adding ones, entry c of the result is therefore the word of the number of
  updates whose signed index word is c.
-/
import Idealize.ShloMosaic.Lib.ValueIdx
import Idealize.ShloMosaic.PureOps.ShapeOps
import Mathlib.Algebra.BigOperators.Fin
import Mathlib.Tactic

noncomputable section

open scoped BigOperators

namespace Cert.Lib.IntScatter

open Idealize.ShloMosaic Idealize.ShloMosaic.ValueIdx

/-- A left fold of steps that each add the word of a natural at one place, read at that place: from the word of a
    natural, it ends at the word of the start plus the naturals added. -/
theorem foldStep_apply {ι κ : Type} (step : (ι → BitVec 32) → κ → ι → BitVec 32) (c : ι) (a : κ → ℕ)
    (hstep : ∀ r n, step r n c = r c + BitVec.ofNat 32 (a n)) :
    ∀ (L : List κ) (y : ι → BitVec 32) (a0 : ℕ), y c = BitVec.ofNat 32 a0 →
      L.foldl step y c = BitVec.ofNat 32 (a0 + (L.map a).sum)
  | [], y, a0, hy => by simpa using hy
  | n :: L, y, a0, hy => by
      rw [List.foldl_cons, List.map_cons, List.sum_cons, ← Nat.add_assoc]
      refine foldStep_apply step c a hstep L _ _ ?_
      rw [hstep, hy, BitVec.ofNat_add]

/-- The dimension numbers of a scatter of single entries into a column: operand [K], scatter indices [M, 1], updates
    [M]; no window axis, the operand's axis 0 inserted and named by the scatter index, the index vector along axis 1 of
    the scatter indices. -/
abbrev scatter1Dims (K M : Nat)
    (wf : ScatterDims.WF ⟨1, ![K]⟩ ⟨2, ![M, 1]⟩ ⟨1, ![M]⟩ [] [0] [0] 1) :
    ScatterDims ⟨1, ![K]⟩ ⟨2, ![M, 1]⟩ ⟨1, ![M]⟩ where
  updateWindowDims := []
  insertedWindowDims := [0]
  scatterDimsToOperandDims := [0]
  indexVectorDim := 1
  wf := wf

/-- The start of update e on the one operand axis is its index word read as a signed integer. -/
theorem scatter1_start {K M w : Nat} (wf : ScatterDims.WF ⟨1, ![K]⟩ ⟨2, ![M, 1]⟩ ⟨1, ![M]⟩ [] [0] [0] 1)
    (idx : IVec ⟨2, ![M, 1]⟩ w) (e : Fin M) :
    (scatter1Dims K M wf).start (ix1 e) idx 0 = (idx (ix2 e (0 : Fin 1))).toInt := by
  unfold ScatterDims.start
  rw [dif_pos (show (0 : Fin 1) ∈ (scatter1Dims K M wf).scatterDimsToOperandDims from List.mem_singleton.mpr rfl)]
  have hsi : (scatter1Dims K M wf).siIdx (ix1 e)
      ⟨List.idxOf (0 : Fin 1) (scatter1Dims K M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate there is 0. -/
theorem scatter1_window {K M : Nat} (wf : ScatterDims.WF ⟨1, ![K]⟩ ⟨2, ![M, 1]⟩ ⟨1, ![M]⟩ [] [0] [0] 1)
    (e : Fin M) : (scatter1Dims K M wf).window (ix1 e) 0 = 0 := by
  unfold ScatterDims.window
  rw [dif_neg]
  intro h
  have : (0 : Fin 1) ∉ (scatter1Dims K M wf).insertedWindowDims := by
    simpa [ScatterDims.sKept, Shape.kept, List.mem_filter] using h
  exact this (List.mem_singleton.mpr rfl)

/-- Update e lands on entry c exactly when its signed index word is c. -/
theorem resultIdx?_scatter1 {K M w : Nat} (wf : ScatterDims.WF ⟨1, ![K]⟩ ⟨2, ![M, 1]⟩ ⟨1, ![M]⟩ [] [0] [0] 1)
    (idx : IVec ⟨2, ![M, 1]⟩ w) (e : Fin M) (c : Fin K) :
    (scatter1Dims K M wf).resultIdx? (ix1 e) idx = some (ix1 c) ↔ (idx (ix2 e (0 : Fin 1))).toInt = (c.val : Int) := by
  unfold ScatterDims.resultIdx?
  have hst := scatter1_start wf idx e
  have hw := scatter1_window wf e
  constructor
  · intro h
    split at h
    · rename_i hb
      have h' := Option.some.inj h
      have h2 : ((scatter1Dims K M wf).start (ix1 e) idx 0 + ((scatter1Dims K M wf).window (ix1 e) 0 : Int)).toNat = c.val :=
        congrArg Fin.val (congrFun h' 0)
      have := hb 0
      rw [hst, hw] at h2 this
      omega
    · cases h
  · intro h
    have hb : ∀ a, 0 ≤ (scatter1Dims K M wf).start (ix1 e) idx a + ((scatter1Dims K M wf).window (ix1 e) a : Int)
        ∧ (scatter1Dims K M wf).start (ix1 e) idx a + ((scatter1Dims K M wf).window (ix1 e) a : Int)
          < (⟨1, ![K]⟩ : Shape).size a := by
      intro a
      obtain rfl : a = 0 := Subsingleton.elim _ _
      rw [hst, hw, h]
      have hc : (c.val : Int) < (K : Int) := by exact_mod_cast c.isLt
      exact ⟨by omega, by simpa using hc⟩
    rw [dif_pos hb]
    congr 1
    funext a
    obtain rfl : a = 0 := Subsingleton.elim _ _
    apply Fin.ext
    show ((scatter1Dims K M wf).start (ix1 e) idx 0 + ((scatter1Dims K M wf).window (ix1 e) 0 : Int)).toNat = c.val
    rw [hst, hw, h]
    simp

/-- THE COUNTING SCATTER READ AT c: ones added at the index column into zeros leave at entry c the word of the number of
    index words whose signed reading is c. -/
theorem scatter_count_apply {K M : Nat} (wf : ScatterDims.WF ⟨1, ![K]⟩ ⟨2, ![M, 1]⟩ ⟨1, ![M]⟩ [] [0] [0] 1)
    (x : IVec ⟨1, ![K]⟩ 32) (hx : ∀ i, x i = 0#32) (idx : IVec ⟨2, ![M, 1]⟩ 32)
    (upd : IVec ⟨1, ![M]⟩ 32) (hupd : ∀ i, upd i = 1#32) (c : Fin K) :
    Host.scatter (scatter1Dims K M wf) IntOp.addi x idx upd (ix1 c)
      = BitVec.ofNat 32 (Finset.univ.filter fun e : Fin M => (idx (ix2 e (0 : Fin 1))).toInt = (c.val : Int)).card := by
  unfold Host.scatter
  have hnum : (⟨1, ![M]⟩ : Shape).numel = M := by simp [Shape.numel]
  refine (foldStep_apply _ (ix1 c)
    (fun n => if (scatter1Dims K M wf).resultIdx? ((⟨1, ![M]⟩ : Shape).rowMajor.symm n) idx = some (ix1 c) then 1 else 0)
    ?_ (List.finRange _) x 0 (hx _)).trans ?_
  · intro r n
    generalize (scatter1Dims K M wf).resultIdx? ((⟨1, ![M]⟩ : Shape).rowMajor.symm n) idx = o
    cases o with
    | none =>
      show r (ix1 c) = r (ix1 c) + BitVec.ofNat 32 (if (none : Option (⟨1, ![K]⟩ : Shape).Idx) = some (ix1 c) then 1 else 0)
      rw [if_neg (by simp)]
      simp
    | some i =>
      show (if ix1 c = i then IntOp.addi (r i) (upd ((⟨1, ![M]⟩ : Shape).rowMajor.symm n)) else r (ix1 c))
        = r (ix1 c) + BitVec.ofNat 32 (if some i = some (ix1 c) then 1 else 0)
      by_cases hci : ix1 c = i
      · subst hci
        rw [if_pos rfl, if_pos rfl, hupd]
        rfl
      · rw [if_neg hci, if_neg (fun e => hci (Option.some.inj e).symm)]
        simp
  congr 1
  rw [Nat.zero_add, ← Fin.sum_univ_def, ← Finset.card_filter]
  refine Finset.card_equiv (finCongr hnum) (fun n => ?_)
  have hsym : (⟨1, ![M]⟩ : Shape).rowMajor.symm n = ix1 (finCongr hnum n) := by
    rw [eq_ix1 ((⟨1, ![M]⟩ : Shape).rowMajor.symm n)]
    congr 1
    apply Fin.ext
    have e := Shape.rowMajor_val_one (d := ![M]) ((⟨1, ![M]⟩ : Shape).rowMajor.symm n)
    rw [Equiv.apply_symm_apply] at e
    exact e.symm
  simp only [Finset.mem_filter, Finset.mem_univ, true_and]
  rw [hsym, resultIdx?_scatter1]

end Cert.Lib.IntScatter

end
-- ==== Proof.LibDegree.lean ====
/-
  The number of edges that land on a node, counted twice.

  A column of `E` index words (shape `[E, 1]`) names, for each edge, the node it lands on; an index outside
  `[0, N − 1]` lands nowhere. The number of edges landing on node `n` is computed in two ways:

  * a scatter-add of the real number one per edge into a column of zeros, on the extended reals: entry `n` is the
    count as a real (`countF_apply`);
  * a scatter of the word one per edge into a column of zero words with word addition, then the word read as a signed
    integer and made a real: entry `n` is the word of the count, and since there are fewer than `2 ^ 31` edges the
    signed reading is the count itself (`countI_apply`).

  So the two are the same real, the larger of it and one is a real that is at least one (`maxCount`), and dividing by
  the first way's maximum is multiplying by one over the second way's (`mean_law`): a real divisor that is not zero
  may be replaced by its reciprocal as a factor, whatever the dividend.
-/
import Idealize.ShloMosaic.Lib.ValueIdx
import Idealize.ShloMosaic.Lib.IdealHost
import Idealize.ShloMosaic.PureOps.Ideal.Laws
import proofs.«111684_j45689862094941_2_alg».proof.Proof.LibScatter1
import proofs.«111684_j45689862094941_2_alg».proof.Proof.LibIntScatter

noncomputable section

open scoped BigOperators

namespace Cert.Lib.Degree

open Idealize.ShloMosaic Idealize.ShloMosaic.ValueIdx Cert.Lib.RowScatter

/-- A sum of ones over a finite set of extended reals is the set's size. -/
theorem sum_one_ereal {ι : Type} (s : Finset ι) : (∑ _e ∈ s, (1 : EReal)) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- The word of a natural below `2 ^ 31`, read as a signed integer, is that natural. -/
theorem toInt_ofNat_small (c : Nat) (h : c < 2 ^ 31) : (BitVec.ofNat 32 c).toInt = (c : Int) := by
  have h1 : (BitVec.ofNat 32 c).toNat = c := by
    rw [BitVec.toNat_ofNat]; exact Nat.mod_eq_of_lt (by omega)
  rw [BitVec.toInt_eq_toNat_cond, h1, if_pos (by omega)]

variable {N E : Nat}

/-- The count of edges landing on `n`. -/
def count (idx : IVec ⟨2, ![E, 1]⟩ 32) (n : Fin N) : ℕ := (landsOn idx N n).card

theorem count_le (idx : IVec ⟨2, ![E, 1]⟩ 32) (n : Fin N) : count idx n ≤ E := by
  unfold count landsOn
  exact (Finset.card_filter_le _ _).trans (by simp)

/-- Ones added into zeros on the extended reals: entry `n` is the count. -/
theorem countF_apply (wf : ScatterDims.WF ⟨1, ![N]⟩ ⟨2, ![E, 1]⟩ ⟨1, ![E]⟩ [] [0] [0] 1)
    (idx : IVec ⟨2, ![E, 1]⟩ 32) (zF : FVec Ideal ⟨1, ![N]⟩ .f32) (hzF : ∀ i, zF i = 0)
    (oF : FVec Ideal ⟨1, ![E]⟩ .f32) (hoF : ∀ i, oF i = 1) (n : Fin N) :
    Host.scatterAdd (F := Ideal) (Cert.Lib.Scatter1.scatter1Dims N E wf) zF idx oF (ix1 n)
      = ((count idx n : ℝ) : EReal) := by
  rw [Cert.Lib.Scatter1.scatterAdd1_apply, hzF, zero_add]
  simp only [hoF]
  exact sum_one_ereal _

/-- One-words added into zero words, read signed and made real: entry `n` is the count. -/
theorem countI_apply (hE : E < 2 ^ 31) (wf : ScatterDims.WF ⟨1, ![N]⟩ ⟨2, ![E, 1]⟩ ⟨1, ![E]⟩ [] [0] [0] 1)
    (idx : IVec ⟨2, ![E, 1]⟩ 32) (zI : IVec ⟨1, ![N]⟩ 32) (hzI : ∀ i, zI i = 0#32)
    (oI : IVec ⟨1, ![E]⟩ 32) (hoI : ∀ i, oI i = 1#32) (n : Fin N) :
    FloatOps.sitofp (F := Ideal) .f32
        (Host.scatter (Cert.Lib.IntScatter.scatter1Dims N E wf) IntOp.addi zI idx oI (ix1 n))
      = ((count idx n : ℝ) : EReal) := by
  rw [Cert.Lib.IntScatter.scatter_count_apply wf zI hzI idx oI hoI n]
  show ((((BitVec.ofNat 32 (count idx n)).toInt : ℤ) : ℝ) : EReal) = _
  rw [toInt_ofNat_small _ (lt_of_le_of_lt (count_le idx n) hE)]
  norm_cast

/-- The larger of a count and one is a real, and it is not zero. -/
theorem maxCount (c : ℕ) : max ((c : ℝ) : EReal) 1 = ((max (c : ℝ) 1 : ℝ) : EReal) ∧ max (c : ℝ) 1 ≠ 0 := by
  refine ⟨?_, ne_of_gt (lt_of_lt_of_le one_pos (le_max_right _ _))⟩
  rw [← EReal.coe_one]
  exact (EReal.coe_strictMono.monotone.map_max).symm

/-- THE MEAN, TWO WAYS: dividing by the larger of the real count and one is multiplying by one over the larger of
    the counted word made real and one. -/
theorem mean_law (hE : E < 2 ^ 31) (wf : ScatterDims.WF ⟨1, ![N]⟩ ⟨2, ![E, 1]⟩ ⟨1, ![E]⟩ [] [0] [0] 1)
    (idx : IVec ⟨2, ![E, 1]⟩ 32) (zF : FVec Ideal ⟨1, ![N]⟩ .f32) (hzF : ∀ i, zF i = 0)
    (oF : FVec Ideal ⟨1, ![E]⟩ .f32) (hoF : ∀ i, oF i = 1)
    (zI : IVec ⟨1, ![N]⟩ 32) (hzI : ∀ i, zI i = 0#32) (oI : IVec ⟨1, ![E]⟩ 32) (hoI : ∀ i, oI i = 1#32)
    (n : Fin N) (a : EReal) :
    Ideal.div a (max (Host.scatterAdd (F := Ideal) (Cert.Lib.Scatter1.scatter1Dims N E wf) zF idx oF (ix1 n)) 1)
      = a * Ideal.div 1 (max (FloatOps.sitofp (F := Ideal) .f32
          (Host.scatter (Cert.Lib.IntScatter.scatter1Dims N E wf) IntOp.addi zI idx oI (ix1 n))) 1) := by
  rw [countF_apply wf idx zF hzF oF hoF n, countI_apply hE wf idx zI hzI oI hoI n, (maxCount (count idx n)).1,
    Ideal.div_coe (maxCount (count idx n)).2, Ideal.div_coe (maxCount (count idx n)).2, one_mul]

end Cert.Lib.Degree

end
-- ==== Proof.Bridge.lean ====
/-
  The kernel's expression and the reference's are one function of the argument arrays.

  Both aggregate along an edge table with the same gather and scatter-add, so the aggregations are the same terms. They
  differ in the mean: the reference divides a node's summed features by the larger of one and the number of edges
  landing on it, that number a sum of float ones; the kernel multiplies by one over the larger of one and the same
  number counted in integer words and made a float. There are 1600000 edges, fewer than `2 ^ 31`, so the counted word
  read as a signed integer is the count, the two divisors are one real that is at least one, and dividing by it is
  multiplying by its reciprocal whatever the dividend — no entry needs to be finite. With that law each reference layer
  is the kernel's layer, and so is the result.
-/
import proofs.«111684_j45689862094941_2_alg».proof.Proof.KSpec
import proofs.«111684_j45689862094941_2_alg».proof.Proof.RSpec
import proofs.«111684_j45689862094941_2_alg».proof.Proof.LibDegree
import Idealize.ShloMosaic.Lib.IdealHost

noncomputable section

namespace Cert.Bridge

open Idealize.ShloMosaic Idealize.ShloMosaic.TcCoe Idealize.ShloMosaic.ValueIdx
open Cert.Lib.SageSum Cert.Lib.Dense Cert.Lib.BiasDot
open Cert.KernelIdeal Cert.ReferenceIdeal

theorem srcOf_eq (ei : IVec ⟨2, ![2, 1600000]⟩ 32) : RSpec.srcOf ei = KSpec.srcOf ei := rfl
theorem dstOf_eq (ei : IVec ⟨2, ![2, 1600000]⟩ 32) : RSpec.dstOf ei = KSpec.dstOf ei := rfl
theorem agg_eq (x : FVec Ideal ⟨2, ![50000, 128]⟩ .f32) (s d : IVec ⟨1, ![1600000]⟩ 32) :
    RSpec.agg x s d = KSpec.agg x s d := rfl

/-- A scalar zero word broadcast to a column is zero everywhere; likewise the one word, the float zero and the float one. -/
theorem zeroI_apply {T : Shape} (h : (⟨0, ![]⟩ : Shape).BroadcastsInDim T ![]) (i : T.Idx) :
    broadcastInDim T ![] h (constantI ⟨0, ![]⟩ 32 0#32) i = 0#32 := by
  rw [broadcastInDim_scalar_apply]; rfl
theorem oneI_apply {T : Shape} (h : (⟨0, ![]⟩ : Shape).BroadcastsInDim T ![]) (i : T.Idx) :
    broadcastInDim T ![] h (constantI ⟨0, ![]⟩ 32 1#32) i = 1#32 := by
  rw [broadcastInDim_scalar_apply]; rfl
theorem zeroF_apply {T : Shape} (h : (⟨0, ![]⟩ : Shape).BroadcastsInDim T ![]) (i : T.Idx) :
    broadcastInDim T ![] h (constant (F := Ideal) ⟨0, ![]⟩ .f32 0x00000000#32) i = 0 := by
  rw [broadcastInDim_scalar_apply, constant_apply, Ideal.ofBits_zero_f32]
theorem oneF_apply {T : Shape} (h : (⟨0, ![]⟩ : Shape).BroadcastsInDim T ![]) (i : T.Idx) :
    broadcastInDim T ![] h (constant (F := Ideal) ⟨0, ![]⟩ .f32 0x3F800000#32) i = 1 := by
  rw [broadcastInDim_scalar_apply, constant_apply, Ideal.ofBits_one_f32]

/-- THE MEAN'S LAW at a node: dividing by the reference's divisor is multiplying by the kernel's factor. -/
theorem law (d : IVec ⟨1, ![1600000]⟩ 32) (p : Fin 50000) (a : EReal) :
    Ideal.div a (RSpec.maxCount d (ix1 p)) = a * KSpec.invCol d (ix2 p (0 : Fin 1)) := by
  unfold Cert.ReferenceIdeal.RSpec.maxCount Cert.ReferenceIdeal.RSpec.countF Cert.KernelIdeal.KSpec.invCol Cert.KernelIdeal.KSpec.countI
  rw [maximumf_apply, oneF_apply, Cert.Lib.SageSum.hostCol_apply, hostDivf_apply, oneF_apply, maximumf_apply, oneF_apply,
    sitofp_apply]
  exact Cert.Lib.Degree.mean_law (N := 50000) (E := 1600000) (by norm_num)
    Cert.ReferenceIdeal.Facts₀.scatter_S50000_S1600000x1_S1600000_n_0_0_1_wf _ _ (fun i => zeroF_apply _ i) _ (fun i => oneF_apply _ i)
    _ (fun i => zeroI_apply _ i) _ (fun i => oneI_apply _ i) p a

/-- The two results are one function of the argument arrays. -/
theorem out_eq (x0 x1 : FVec Ideal ⟨2, ![50000, 128]⟩ .f32) (e2 e3 : IVec ⟨2, ![2, 1600000]⟩ 32)
    (w4 : FVec Ideal ⟨2, ![128, 128]⟩ .f32) (b5 : FVec Ideal ⟨1, ![128]⟩ .f32) (w6 : FVec Ideal ⟨2, ![128, 128]⟩ .f32)
    (w7 : FVec Ideal ⟨2, ![128, 128]⟩ .f32) (b8 : FVec Ideal ⟨1, ![128]⟩ .f32) (w9 : FVec Ideal ⟨2, ![128, 128]⟩ .f32)
    (w10 : FVec Ideal ⟨2, ![128, 128]⟩ .f32) (b11 : FVec Ideal ⟨1, ![128]⟩ .f32) (w12 : FVec Ideal ⟨2, ![128, 128]⟩ .f32)
    (w16 : FVec Ideal ⟨2, ![128, 2]⟩ .f32) (b17 : FVec Ideal ⟨1, ![2]⟩ .f32) :
    RSpec.out x0 x1 e2 e3 w4 b5 w6 w7 b8 w9 w10 b11 w12 w16 b17
      = KSpec.out x0 x1 e2 e3 w4 b5 w6 w7 b8 w9 w10 b11 w12 w16 b17 :=
  Cert.ReferenceIdeal.RSpec.out_eq x0 x1 e2 e3 w4 b5 w6 w7 b8 w9 w10 b11 w12 w16 b17
    (KSpec.invCol (KSpec.dstOf e2)) (KSpec.invCol (KSpec.dstOf e3)) (fun p a => law _ p a) (fun p a => law _ p a)

end Cert.Bridge

end
-- ==== Proof.lean ====
/-
  The certificate's five claims for a two-layer mean-aggregation graph network with a linear head.

  The kernel's program computes the edge tables' source and destination rows, per-node factor columns and the two
  layer-one aggregations on the host, runs two launches for the two layer-one outputs, aggregates once more on the
  host, and runs a last launch for the second layer and the head; the reference computes the same network with plain
  array operations. Read at exact extended reals:

  * each program runs to the end without a fault and leaves its arguments unchanged (the three frames: the two with
    launches from the generated segment-by-segment run, the reference's from its generated run);
  * the idealized kernel's program is the printed one with nothing rewritten, so what the idealization must preserve is
    the empty statement;
  * the two results are equal entry by entry. Every launch leaves, block of rows by block of rows, the layer of the
    whole arrays it finds; the host's aggregations are the same terms in both programs; and the one difference — the
    reference divides by the larger of a float count and one where the kernel multiplies by the reciprocal of the larger
    of an integer count and one — is no difference, because the count is below `2 ^ 31`, so both divisors are the same
    real number, at least one. No finiteness of the inputs is used.
-/
import proofs.«111684_j45689862094941_2_alg».proof.Defs
import proofs.«111684_j45689862094941_2_alg».proof.Proof.Gen.Kernel
import proofs.«111684_j45689862094941_2_alg».proof.Proof.Gen.Kernel.Frame
import proofs.«111684_j45689862094941_2_alg».proof.Proof.Gen.KernelIdeal
import proofs.«111684_j45689862094941_2_alg».proof.Proof.Gen.KernelIdeal.Frame
import proofs.«111684_j45689862094941_2_alg».proof.Proof.Gen.ReferenceIdeal
import proofs.«111684_j45689862094941_2_alg».proof.Proof.Gen.Pre_finite_inputs
import proofs.«111684_j45689862094941_2_alg».proof.Proof.Gen.ReferenceIdeal.Run
import proofs.«111684_j45689862094941_2_alg».proof.Proof.KRun
import proofs.«111684_j45689862094941_2_alg».proof.Proof.KHost
import proofs.«111684_j45689862094941_2_alg».proof.Proof.RSpec
import proofs.«111684_j45689862094941_2_alg».proof.Proof.Bridge
import Idealize.ShloMosaic.Adequacy
import Idealize.ShloMosaic.Init

noncomputable section

namespace Cert.Proof

open Idealize.ShloMosaic Idealize.SL.Sem

/-- The printed kernel's program runs to the end and leaves its arguments unchanged. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the arguments, the two idealized programs end with equal results: the kernel's at
    its expression of the arguments, the reference's at its own, and the two expressions are one function. -/
theorem algebraic : Cert.algebraic_KernelIdeal_ReferenceIdeal := by
  intro m ρ m' ρ' _ hagree
  refine ⟨fun c => Cert.KernelIdeal.Gen.W5 m ρ c (Proc.devRef .tc Cert.KernelIdeal.main_v60),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, -, -, -, h16, h17⟩ := hagree c
  rw [Cert.ReferenceIdeal.RSpec.res_eq, h0, h1, h2, h3, h4, h5, h6, h7, h8, h9, h10, h11, h12, h16, h17]
  exact (Cert.Bridge.out_eq _ _ _ _ _ _ _ _ _ _ _ _ _ _ _).trans (Cert.KernelIdeal.KHost.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
